-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x3 : Shape := ⟨2, ![64, 3]⟩
abbrev S3 : Shape := ⟨1, ![3]⟩
abbrev S3x256 : Shape := ⟨2, ![3, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S256x512 .f32) (main_arg9 : FVec F S512 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S3x256 .f32) (main_arg6 : FVec F S3x256 .f32) (main_arg7 : FVec F S256 .f32) (main_arg8 : FVec F S256x512 .f32) (main_arg9 : FVec F S512 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x3200000 32) (main_arg2 : FVec F S64x3 .f32) (main_arg3 : FVec F S64x3 .f32) (main_arg4 : FVec F S3 .f32) (main_arg5 : FVec F S3x256 .f32) (main_arg6 : FVec F S3x256 .f32) (main_arg7 : FVec F S256 .f32) (main_arg8 : FVec F S256x512 .f32) (main_arg9 : FVec F S512 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x3 .f32 := Host.absf main_arg2
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S3 .f32 := Host.absf main_arg4
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x3200000 : Shape := ⟨2, ![2, 3200000]⟩
abbrev S64x3 : Shape := ⟨2, ![64, 3]⟩
abbrev S3 : Shape := ⟨1, ![3]⟩
abbrev S3x256 : Shape := ⟨2, ![3, 256]⟩
abbrev S256 : Shape := ⟨1, ![256]⟩
abbrev S256x512 : Shape := ⟨2, ![256, 512]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x3 : Shape := ⟨2, ![100000, 3]⟩
abbrev S4000x64 : Shape := ⟨2, ![4000, 64]⟩
abbrev S4000x3 : Shape := ⟨2, ![4000, 3]⟩
abbrev S3200000x3 : Shape := ⟨2, ![3200000, 3]⟩
abbrev S1x3 : Shape := ⟨2, ![1, 3]⟩
abbrev S1x256 : Shape := ⟨2, ![1, 256]⟩
abbrev S1x512 : Shape := ⟨2, ![1, 512]⟩
abbrev S100000x512 : Shape := ⟨2, ![100000, 512]⟩
abbrev S4000x512 : Shape := ⟨2, ![4000, 512]⟩
abbrev S4000x256 : Shape := ⟨2, ![4000, 256]⟩

abbrev nBuf : Space → Nat
  | .hbm => 125
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x3, .f32⟩
  | .hbm, ⟨3, _⟩ => ⟨S64x3, .f32⟩
  | .hbm, ⟨4, _⟩ => ⟨S3, .f32⟩
  | .hbm, ⟨5, _⟩ => ⟨S3x256, .f32⟩
  | .hbm, ⟨6, _⟩ => ⟨S3x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S3200000, .i1⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S3200000, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000, .f32⟩
  | .hbm, ⟨58, _⟩ => ⟨S3200000, .f32⟩
  | .hbm, ⟨59, _⟩ => ⟨S100000x64, .bf16⟩
  | .hbm, ⟨60, _⟩ => ⟨S64x3, .bf16⟩
  | .hbm, ⟨61, _⟩ => ⟨S64x3, .bf16⟩
  | .hbm, ⟨62, _⟩ => ⟨S100000x3, .f32⟩
  | .hbm, ⟨63, _⟩ => ⟨S100000x3, .f32⟩
  | .hbm, ⟨64, _⟩ => ⟨S_, .f32⟩
  | .hbm, ⟨65, _⟩ => ⟨S100000x3, .f32⟩
  | .hbm, ⟨66, _⟩ => ⟨S3200000x1, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x3, .f32⟩
  | .hbm, ⟨76, _⟩ => ⟨S3200000x3, .f32⟩
  | .hbm, ⟨77, _⟩ => ⟨S3200000x3, .f32⟩
  | .hbm, ⟨78, _⟩ => ⟨S_, .i32⟩
  | .hbm, ⟨79, _⟩ => ⟨S3200000, .i32⟩
  | .hbm, ⟨80, _⟩ => ⟨S3200000, .i1⟩
  | .hbm, ⟨81, _⟩ => ⟨S_, .i32⟩
  | .hbm, ⟨82, _⟩ => ⟨S3200000, .i32⟩
  | .hbm, ⟨83, _⟩ => ⟨S3200000, .i32⟩
  | .hbm, ⟨84, _⟩ => ⟨S3200000, .i32⟩
  | .hbm, ⟨85, _⟩ => ⟨S3200000x1, .i32⟩
  | .hbm, ⟨86, _⟩ => ⟨S100000x3, .f32⟩
  | .hbm, ⟨87, _⟩ => ⟨S100000x3, .f32⟩
  | .hbm, ⟨88, _⟩ => ⟨S1x3, .f32⟩
  | .hbm, ⟨89, _⟩ => ⟨S100000x3, .f32⟩
  | .hbm, ⟨90, _⟩ => ⟨S100000x3, .f32⟩
  | .hbm, ⟨91, _⟩ => ⟨S_, .f32⟩
  | .hbm, ⟨92, _⟩ => ⟨S100000x3, .f32⟩
  | .hbm, ⟨93, _⟩ => ⟨S100000x3, .f32⟩
  | .hbm, ⟨94, _⟩ => ⟨S_, .f32⟩
  | .hbm, ⟨95, _⟩ => ⟨S100000x3, .f32⟩
  | .hbm, ⟨96, _⟩ => ⟨S3200000x1, .f32⟩
  | .hbm, ⟨97, _⟩ => ⟨S_, .i32⟩
  | .hbm, ⟨98, _⟩ => ⟨S3200000, .i32⟩
  | .hbm, ⟨99, _⟩ => ⟨S3200000, .i1⟩
  | .hbm, ⟨100, _⟩ => ⟨S_, .i32⟩
  | .hbm, ⟨101, _⟩ => ⟨S3200000, .i32⟩
  | .hbm, ⟨102, _⟩ => ⟨S3200000, .i32⟩
  | .hbm, ⟨103, _⟩ => ⟨S3200000, .i32⟩
  | .hbm, ⟨104, _⟩ => ⟨S3200000x1, .i32⟩
  | .hbm, ⟨105, _⟩ => ⟨S3200000x3, .f32⟩
  | .hbm, ⟨106, _⟩ => ⟨S3200000x3, .f32⟩
  | .hbm, ⟨107, _⟩ => ⟨S3200000x3, .f32⟩
  | .hbm, ⟨108, _⟩ => ⟨S_, .i32⟩
  | .hbm, ⟨109, _⟩ => ⟨S3200000, .i32⟩
  | .hbm, ⟨110, _⟩ => ⟨S3200000, .i1⟩
  | .hbm, ⟨111, _⟩ => ⟨S_, .i32⟩
  | .hbm, ⟨112, _⟩ => ⟨S3200000, .i32⟩
  | .hbm, ⟨113, _⟩ => ⟨S3200000, .i32⟩
  | .hbm, ⟨114, _⟩ => ⟨S3200000, .i32⟩
  | .hbm, ⟨115, _⟩ => ⟨S3200000x1, .i32⟩
  | .hbm, ⟨116, _⟩ => ⟨S100000x3, .f32⟩
  | .hbm, ⟨117, _⟩ => ⟨S100000x3, .bf16⟩
  | .hbm, ⟨118, _⟩ => ⟨S100000x3, .bf16⟩
  | .hbm, ⟨119, _⟩ => ⟨S3x256, .bf16⟩
  | .hbm, ⟨120, _⟩ => ⟨S3x256, .bf16⟩
  | .hbm, ⟨121, _⟩ => ⟨S256x512, .bf16⟩
  | .hbm, ⟨122, _⟩ => ⟨S1x256, .f32⟩
  | .hbm, ⟨123, _⟩ => ⟨S1x512, .f32⟩
  | .hbm, ⟨124, _⟩ => ⟨S100000x512, .f32⟩
  | .local _ .vmem, ⟨0, _⟩ => ⟨S4000x64, .bf16⟩
  | .local _ .vmem, ⟨1, _⟩ => ⟨S4000x64, .bf16⟩
  | .local _ .vmem, ⟨2, _⟩ => ⟨S64x3, .bf16⟩
  | .local _ .vmem, ⟨3, _⟩ => ⟨S64x3, .bf16⟩
  | .local _ .vmem, ⟨4, _⟩ => ⟨S4000x3, .f32⟩
  | .local _ .vmem, ⟨5, _⟩ => ⟨S4000x3, .f32⟩
  | .local _ .vmem, ⟨6, _⟩ => ⟨S4000x3, .f32⟩
  | .local _ .vmem, ⟨7, _⟩ => ⟨S4000x3, .f32⟩
  | .local _ .vmem, ⟨8, _⟩ => ⟨S4000x3, .bf16⟩
  | .local _ .vmem, ⟨9, _⟩ => ⟨S4000x3, .bf16⟩
  | .local _ .vmem, ⟨10, _⟩ => ⟨S4000x3, .bf16⟩
  | .local _ .vmem, ⟨11, _⟩ => ⟨S4000x3, .bf16⟩
  | .local _ .vmem, ⟨12, _⟩ => ⟨S3x256, .bf16⟩
  | .local _ .vmem, ⟨13, _⟩ => ⟨S3x256, .bf16⟩
  | .local _ .vmem, ⟨14, _⟩ => ⟨S1x256, .f32⟩
  | .local _ .vmem, ⟨15, _⟩ => ⟨S256x512, .bf16⟩
  | .local _ .vmem, ⟨16, _⟩ => ⟨S1x512, .f32⟩
  | .local _ .vmem, ⟨17, _⟩ => ⟨S4000x512, .f32⟩
  | .local _ .vmem, ⟨18, _⟩ => ⟨S4000x512, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call1_cst : Ref sig .tc := ⟨.hbm, 91, rfl⟩
abbrev main_call1_v0 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x3 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x3 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x3 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S4000x3_S4000x3_0_0 : ∀ a, (![0, 0] : Fin 2 → Nat) a + S4000x3.size a ≤ S4000x3.size a
  h_S4000x3 : 0 < S4000x3.numel
  bcast_S_S100000x3 : S_.BroadcastsInDim S100000x3 (![] : Fin 0 → Fin S100000x3.rank)
  bcast_S3200000x1_S3200000x3_0_1 : S3200000x1.BroadcastsInDim S3200000x3 (![0, 1] : Fin 2 → Fin S3200000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  shapeCasts_S256_S1x256 : S256.ShapeCasts S1x256
  shapeCasts_S512_S1x512 : S512.ShapeCasts S1x512
  shapeCasts_S4000x3_S4000x3 : S4000x3.ShapeCasts S4000x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S4000x512_S4000x512_0_0 : ∀ a, (![0, 0] : Fin 2 → Nat) a + S4000x512.size a ≤ S4000x512.size a
  h_S4000x512 : 0 < S4000x512.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x64_S64x3_S4000x3_1_0_0_1_n_n_wf : DotDims.WF S4000x64 S64x3 S4000x3 [1] [0] [0] [1] [] []
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S4000x3_S3x256_S4000x256_1_0_0_1_n_n_wf : DotDims.WF S4000x3 S3x256 S4000x256 [1] [0] [0] [1] [] []
  dot_S4000x256_S256x512_S4000x512_1_0_0_1_n_n_wf : DotDims.WF S4000x256 S256x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .bf16 = 32 ∨ (Rect.block (s := S100000x64) S4000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .bf16 = 32 ∨ (Rect.block (s := S64x3) S64x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x3.size a ≤ S64x3.size a
  hwx0_2 : ∀ i : grid0.Coords, EltTy.bits .bf16 = 32 ∨ (Rect.block (s := S64x3) S64x3.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S100000x3.size a
  hwx0_3 : ∀ i : grid0.Coords, EltTy.bits .f32 = 32 ∨ (Rect.block (s := S100000x3) S4000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x3.size a ≤ S100000x3.size a
  hwx0_4 : ∀ i : grid0.Coords, EltTy.bits .f32 = 32 ∨ (Rect.block (s := S100000x3) S4000x3.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x3.size a ≤ S100000x3.size a
  hwx1_0 : ∀ i : grid1.Coords, EltTy.bits .bf16 = 32 ∨ (Rect.block (s := S100000x3) S4000x3.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x3.size a ≤ S100000x3.size a
  hwx1_1 : ∀ i : grid1.Coords, EltTy.bits .bf16 = 32 ∨ (Rect.block (s := S100000x3) S4000x3.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x256.size a ≤ S3x256.size a
  hwx1_2 : ∀ i : grid1.Coords, EltTy.bits .bf16 = 32 ∨ (Rect.block (s := S3x256) S3x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x256.size a ≤ S3x256.size a
  hwx1_3 : ∀ i : grid1.Coords, EltTy.bits .bf16 = 32 ∨ (Rect.block (s := S3x256) S3x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .bf16 = 32 ∨ (Rect.block (s := S256x512) S256x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x512.size a ≤ S100000x512.size a
  hwx1_7 : ∀ i : grid1.Coords, EltTy.bits .f32 = 32 ∨ (Rect.block (s := S100000x512) S4000x512.size (cc1_transform_7 i) (hinb1_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x64_S64x3_S4000x3_1_0_0_1_n_n : DotDims S4000x64 S64x3 S4000x3 where
  lhsContracting := [1]
  rhsContracting := [0]
  lhsNonContracting := [0]
  rhsNonContracting := [1]
  lhsBatch := []
  rhsBatch := []
  wf := dot_S4000x64_S64x3_S4000x3_1_0_0_1_n_n_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S4000x3_S3x256_S4000x256_1_0_0_1_n_n : DotDims S4000x3 S3x256 S4000x256 where
  lhsContracting := [1]
  rhsContracting := [0]
  lhsNonContracting := [0]
  rhsNonContracting := [1]
  lhsBatch := []
  rhsBatch := []
  wf := dot_S4000x3_S3x256_S4000x256_1_0_0_1_n_n_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf

abbrev win0_0 : Pipeline.Window sig grid0 :=
  Pipeline.Window.ofSpec (Memref.whole main_v37) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S64x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40_0) S4000x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_1) S4000x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v82) S4000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v83) S4000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S3x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S3x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v86) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v88) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v89) S4000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x3 : Shape := ⟨2, ![64, 3]⟩
abbrev S3 : Shape := ⟨1, ![3]⟩
abbrev S3x256 : Shape := ⟨2, ![3, 256]⟩
abbrev S256 : Shape := ⟨1, ![256]⟩
abbrev S256x512 : Shape := ⟨2, ![256, 512]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x3 : Shape := ⟨2, ![100000, 3]⟩
abbrev S1x3 : Shape := ⟨2, ![1, 3]⟩
abbrev S3200000x3 : Shape := ⟨2, ![3200000, 3]⟩
abbrev S100000x256 : Shape := ⟨2, ![100000, 256]⟩
abbrev S1x256 : Shape := ⟨2, ![1, 256]⟩
abbrev S100000x512 : Shape := ⟨2, ![100000, 512]⟩
abbrev S1x512 : Shape := ⟨2, ![1, 512]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x3200000, .i32⟩
  | 2 => ⟨S64x3, .f32⟩
  | 3 => ⟨S64x3, .f32⟩
  | 4 => ⟨S3, .f32⟩
  | 5 => ⟨S3x256, .f32⟩
  | 6 => ⟨S3x256, .f32⟩
  | 7 => ⟨S256, .f32⟩
  | 8 => ⟨S256x512, .f32⟩
  | 9 => ⟨S512, .f32⟩
  | 10 => ⟨S1x3200000, .i32⟩
  | 11 => ⟨S3200000, .i32⟩
  | 12 => ⟨S1x3200000, .i32⟩
  | 13 => ⟨S3200000, .i32⟩
  | 14 => ⟨S3200000, .i1⟩
  | 15 => ⟨S_, .f32⟩
  | 16 => ⟨S_, .f32⟩
  | 17 => ⟨S3200000, .f32⟩
  | 18 => ⟨S3200000, .f32⟩
  | 19 => ⟨S3200000, .f32⟩
  | 20 => ⟨S3200000, .f32⟩
  | 21 => ⟨S_, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000, .f32⟩
  | 53 => ⟨S3200000, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000, .f32⟩
  | 63 => ⟨S3200000, .f32⟩
  | 64 => ⟨S1x3200000, .i32⟩
  | 65 => ⟨S3200000, .i32⟩
  | 66 => ⟨S1x3200000, .i32⟩
  | 67 => ⟨S3200000, .i32⟩
  | 68 => ⟨S_, .f32⟩
  | 69 => ⟨S100000x64, .f32⟩
  | 70 => ⟨S3200000x1, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x64, .f32⟩
  | 80 => ⟨S3200000x64, .f32⟩
  | 81 => ⟨S3200000x64, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S100000x64, .f32⟩
  | 91 => ⟨S100000x3, .f32⟩
  | 92 => ⟨S100000x3, .f32⟩
  | 93 => ⟨S100000x3, .f32⟩
  | 94 => ⟨S1x3, .f32⟩
  | 95 => ⟨S100000x3, .f32⟩
  | 96 => ⟨S100000x3, .f32⟩
  | 97 => ⟨S_, .f32⟩
  | 98 => ⟨S100000x3, .f32⟩
  | 99 => ⟨S100000x3, .f32⟩
  | 100 => ⟨S1x3200000, .i32⟩
  | 101 => ⟨S3200000, .i32⟩
  | 102 => ⟨S1x3200000, .i32⟩
  | 103 => ⟨S3200000, .i32⟩
  | 104 => ⟨S_, .f32⟩
  | 105 => ⟨S100000x3, .f32⟩
  | 106 => ⟨S3200000x1, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x3, .f32⟩
  | 116 => ⟨S3200000x3, .f32⟩
  | 117 => ⟨S3200000x3, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S100000x3, .f32⟩
  | 127 => ⟨S100000x256, .f32⟩
  | _ => ⟨S100000x64, .f32⟩

abbrev hbmTy0_1 (i : Nat) : BufTy := match i % 128 with
  | 0 => ⟨S100000x256, .f32⟩
  | 1 => ⟨S100000x256, .f32⟩
  | 2 => ⟨S1x256, .f32⟩
  | 3 => ⟨S100000x256, .f32⟩
  | 4 => ⟨S100000x256, .f32⟩
  | 5 => ⟨S_, .f32⟩
  | 6 => ⟨S100000x256, .f32⟩
  | 7 => ⟨S100000x256, .f32⟩
  | 8 => ⟨S100000x512, .f32⟩
  | 9 => ⟨S1x512, .f32⟩
  | 10 => ⟨S100000x512, .f32⟩
  | 11 => ⟨S100000x512, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x3 : S_.BroadcastsInDim S100000x3 (![] : Fin 0 → Fin S100000x3.rank)
  bcast_S3200000x1_S3200000x3_0_1 : S3200000x1.BroadcastsInDim S3200000x3 (![0, 1] : Fin 2 → Fin S3200000x3.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x3_S100000x3_1_0_0_1_n_n_wf : DotDims.WF S100000x64 S64x3 S100000x3 [1] [0] [0] [1] [] []
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S100000x3_S3x256_S100000x256_1_0_0_1_n_n_wf : DotDims.WF S100000x3 S3x256 S100000x256 [1] [0] [0] [1] [] []
  dot_S100000x256_S256x512_S100000x512_1_0_0_1_n_n_wf : DotDims.WF S100000x256 S256x512 S100000x512 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S100000x3_S3x256_S100000x256_1_0_0_1_n_n : DotDims S100000x3 S3x256 S100000x256 where
  lhsContracting := [1]
  rhsContracting := [0]
  lhsNonContracting := [0]
  rhsNonContracting := [1]
  lhsBatch := []
  rhsBatch := []
  wf := dot_S100000x3_S3x256_S100000x256_1_0_0_1_n_n_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf

class Facts : Prop extends Facts₀ where

variable [Facts]
-- ==== Proof.KernelRun.lean ====
/-
  The idealized kernel program's run with its result named.

  @main is a chain of host stretches and two device regions.  Every weakly fair execution ends, without a fault, with
  each buffer that no scope owns at the contents the chain folds to: the launch contents pushed through the first host
  stretch, the first region's write-backs, the second host stretch and the second region's write-backs.  Read at the
  result buffer this names the program's result; read at an argument it gives back the launch contents, since nothing
  in the chain writes an argument.
-/
import proofs.«111167_j33036888441456_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the memory `m` terminates, nothing faulting; the result buffer ends at the
    chain's fold read there, and every argument ends as launched. -/
theorem run_result : θ_run defs (onTc (τ := τ) (main (F := F))) ⟨m, fun _ => 0, ρ⟩ (fun r => ∀ c : Dev nD,
      r.2.mem ((c.tc : Thread nD τ).loc main_v89) = W8 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v89 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.RealInputs.lean ====
/-
  From the finiteness precondition to real entries.

  The precondition is a conjunction, nested to the left, of nine tests, one per float argument: the `and`-reduction
  over all axes, started from `true`, of the entrywise test `|x| < +∞`.  When the conjunction is `true` each of
  its conjuncts is `true`; the conjuncts of the arguments 0 and 3 then make every entry of these two arrays a real
  number.
-/
import proofs.«111167_j33036888441456_2_alg».proof.Pre_finite_inputs
import proofs.«111167_j33036888441456_2_alg».proof.Proof.LibRealEntries

noncomputable section

namespace Cert.Cheb

open Idealize.ShloMosaic
open Cert.Pre_finite_inputs

/-- A conjunction of two rank-0 truth values that is `true` has both conjuncts `true`. -/
theorem andi_ix0 (a b : IVec S_ 1) (h : andi a b ValueIdx.ix0 = 1#1) :
    a ValueIdx.ix0 = 1#1 ∧ b ValueIdx.ix0 = 1#1 :=
  IntOp.andi_eq_one.1 h

/-- THE INPUTS ARE REAL.  Under the finiteness precondition every entry of the arguments 0 and 3 is a real number. -/
theorem inputs_real [Cert.Pre_finite_inputs.Facts]
    (x0 : FVec Ideal Cert.Pre_finite_inputs.S100000x64 .f32) (x1 : IVec Cert.Pre_finite_inputs.S2x3200000 32)
    (x2 x3 : FVec Ideal Cert.Pre_finite_inputs.S64x3 .f32) (x4 : FVec Ideal Cert.Pre_finite_inputs.S3 .f32)
    (x5 x6 : FVec Ideal Cert.Pre_finite_inputs.S3x256 .f32) (x7 : FVec Ideal Cert.Pre_finite_inputs.S256 .f32)
    (x8 : FVec Ideal Cert.Pre_finite_inputs.S256x512 .f32) (x9 : FVec Ideal Cert.Pre_finite_inputs.S512 .f32)
    (hpre : Cert.Pre_finite_inputs.fn (F := Ideal) x0 x1 x2 x3 x4 x5 x6 x7 x8 x9 = fun _ => 1#1) :
    (∀ i, Cert.RealEntries.IsReal (x0 i)) ∧ (∀ i, Cert.RealEntries.IsReal (x3 i)) := by
  have h := congrFun hpre ValueIdx.ix0
  dsimp only [Cert.Pre_finite_inputs.fn, Cert.Pre_finite_inputs.fn_part1, Cert.Pre_finite_inputs.fn_part2] at h
  -- the six outer conjuncts (arguments 9, 8, 7, 6, 5, 4) are dropped
  obtain ⟨h, -⟩ := andi_ix0 _ _ h
  obtain ⟨h, -⟩ := andi_ix0 _ _ h
  obtain ⟨h, -⟩ := andi_ix0 _ _ h
  obtain ⟨h, -⟩ := andi_ix0 _ _ h
  obtain ⟨h, -⟩ := andi_ix0 _ _ h
  obtain ⟨h, -⟩ := andi_ix0 _ _ h
  -- what is left: (argument 0 and argument 2) and argument 3
  obtain ⟨h02, h3⟩ := andi_ix0 _ _ h
  obtain ⟨h0, -⟩ := andi_ix0 _ _ h02
  exact ⟨Cert.RealEntries.entries_real x0 _ _ _ h0, Cert.RealEntries.entries_real x3 _ _ _ h3⟩

end Cert.Cheb

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.KernelHost.lean ====
/-
  What the idealized kernel program's host lines compute, stretch by stretch.

  Between the launch and the first device region the host lines build, from the edge array alone, the two index columns
  (every source and every destination node number, a negative one wrapped once by the node count), the edge indicator
  `w` (1 where source and destination differ, else 0), the degree `deg = scatter-add of w by source`, its guarded inverse
  root `dinv = (deg > 0 ? rsqrt (max deg 1) : 0)` and the edge weight `norm = ((-dinv[src]) · w) · dinv[dst]`; they also
  pass the node features and the two first-layer matrices to the region (a change of number format only).  Between the
  two regions they propagate the region's second product over the edges (`gather by source, weight by norm, scatter-add
  by destination`), add the first product and the bias, clamp at zero, propagate that once more, and pass both to the
  second region with the second-layer matrices.  Each stretch is read here as a function of the contents it starts from.
-/
import proofs.«111167_j33036888441456_2_alg».proof.Proof.Gen.KernelIdeal.Frame
import proofs.«111167_j33036888441456_2_alg».proof.Proof.LibHostKept
import Idealize.ShloMosaic.Lib.StableHlo.Run

set_option maxRecDepth 16384

noncomputable section

namespace Cert.KernelIdeal.HostValue

open Cert.KernelIdeal Cert.KernelIdeal.Gen Cert.Kept
open Idealize.ShloMosaic Idealize.ShloMosaic.TcCoe Idealize.SL.Sem Idealize.ShloMosaic.StableHlo

variable {F : FTy → Type} [FloatOps F]

/-! ## The stages, as functions of what they read -/

/-- Row 0 of the edge array as a vector: every edge's source node number. -/
def srcOf (x1 : IVec S2x3200000 32) : IVec S3200000 32 :=
  shapeCast S3200000 (extractStridedSlice S1x3200000 ![0, 0] x1 slices_S2x3200000_S1x3200000_0_0) shapeCasts_S1x3200000_S3200000

/-- Row 1 of the edge array as a vector: every edge's destination node number. -/
def dstOf (x1 : IVec S2x3200000 32) : IVec S3200000 32 :=
  shapeCast S3200000 (extractStridedSlice S1x3200000 ![1, 0] x1 slices_S2x3200000_S1x3200000_1_0) shapeCasts_S1x3200000_S3200000

/-- A vector of node numbers as an index column: a negative number wrapped once by the node count. -/
def colOf (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The edge indicator: 1 where source and destination differ. -/
def wOf (x1 : IVec S2x3200000 32) : FVec F S3200000 .f32 :=
  uitofp .f32 (cmpi .ne (srcOf x1) (dstOf x1))

/-- The degree: the indicators added up by source node. -/
def degOf (x1 : IVec S2x3200000 32) : FVec F S100000 .f32 :=
  Host.scatterAdd scatter_S100000_S3200000x1_S3200000_n_0_0_1
    (broadcastInDim S100000 ![] bcast_S_S100000 (constant S_ .f32 0x00000000#32)) (colOf (srcOf x1)) (wOf (F := F) x1)

/-- The guarded inverse root of the degree. -/
def dinvOf (x1 : IVec S2x3200000 32) : FVec F S100000 .f32 :=
  select (cmpf .ogt (degOf (F := F) x1) (broadcastInDim S100000 ![] bcast_S_S100000 (constant S_ .f32 0x00000000#32)))
    (Host.rsqrt (maximumf (degOf (F := F) x1) (broadcastInDim S100000 ![] bcast_S_S100000 (constant S_ .f32 0x3F800000#32))))
    (broadcastInDim S100000 ![] bcast_S_S100000 (id (constant S_ .f32 0x00000000#32)))

/-- The edge weight. -/
def normOf (x1 : IVec S2x3200000 32) : FVec F S3200000 .f32 :=
  mulf (mulf (Host.negf (Host.gather gather_S100000_S3200000x1_S3200000_n_0_n_n_0_1_1 (dinvOf (F := F) x1) (colOf (srcOf x1)))) (wOf (F := F) x1))
    (Host.gather gather_S100000_S3200000x1_S3200000_n_0_n_n_0_1_1 (dinvOf (F := F) x1) (colOf (dstOf x1)))

/-- One propagation over the edges of a three-column table: rows taken by source, weighted, added by destination. -/
def propOf (nrm : FVec F S3200000 .f32) (src dst : IVec S3200000 32) (X : FVec F S100000x3 .f32) : FVec F S100000x3 .f32 :=
  Host.scatterAdd scatter_S100000x3_S3200000x1_S3200000x3_1_0_0_1
    (broadcastInDim S100000x3 ![] bcast_S_S100000x3 (constant S_ .f32 0x00000000#32)) (colOf dst)
    (mulf (broadcastInDim S3200000x3 ![0, 1] bcast_S3200000x1_S3200000x3_0_1 (broadcastInDim S3200000x1 ![0] bcast_S3200000_S3200000x1_0 nrm))
      (Host.gather gather_S100000x3_S3200000x1_S3200000x3_1_0_n_n_0_1_13 X (colOf src)))

/-- The first layer's pre-activation: the direct product, plus the propagated one, plus the bias row. -/
def preOf (A0 T : FVec F S100000x3 .f32) (b1 : FVec F S3 .f32) : FVec F S100000x3 .f32 :=
  addf (addf A0 T) (broadcastInDim S100000x3 ![0, 1] bcast_S1x3_S100000x3_0_1 (broadcastInDim S1x3 ![1] bcast_S3_S1x3_1 b1))

/-- Clamping at zero. -/
def reluOf (P : FVec F S100000x3 .f32) : FVec F S100000x3 .f32 :=
  maximumf P (broadcastInDim S100000x3 ![] bcast_S_S100000x3 (constant S_ .f32 0x00000000#32))

variable (Wv : Valuation τ sig (Elt F))

/-! ## The first stretch: from the launch contents to the first region's entry -/

theorem first_src : after hostOps0 Wv (Proc.devRef .tc main_v1) = srcOf (Wv (Proc.devRef .tc main_arg1)) := by
  after_results_simp <;> rfl
theorem first_dst : after hostOps0 Wv (Proc.devRef .tc main_v3) = dstOf (Wv (Proc.devRef .tc main_arg1)) := by
  after_results_simp <;> rfl
theorem first_w : after hostOps0 Wv (Proc.devRef .tc main_v5) = wOf (F := F) (Wv (Proc.devRef .tc main_arg1)) := by
  after_results_simp <;> rfl
theorem first_deg_gt : after hostOps0 Wv (Proc.devRef .tc main_v15)
    = cmpf .ogt (degOf (F := F) (Wv (Proc.devRef .tc main_arg1))) (broadcastInDim S100000 ![] bcast_S_S100000 (constant S_ .f32 0x00000000#32)) := by
  after_results_simp <;> rfl
theorem first_rsqrt : after hostOps0 Wv (Proc.devRef .tc main_v18)
    = Host.rsqrt (maximumf (degOf (F := F) (Wv (Proc.devRef .tc main_arg1))) (broadcastInDim S100000 ![] bcast_S_S100000 (constant S_ .f32 0x3F800000#32))) := by
  after_results_simp <;> rfl
theorem first_zero : after hostOps0 Wv (Proc.devRef .tc main_cst_3) = constant (F := F) S_ .f32 0x00000000#32 := by
  after_results_simp <;> rfl

/-! ## The outlined guard, and the rest of the way to the first region -/

theorem guard_dinv : after hostOps0_1 Wv (Proc.devRef .tc main_v19)
    = select (Wv (Proc.devRef .tc main_v15)) (Wv (Proc.devRef .tc main_v18))
        (broadcastInDim S100000 ![] bcast_S_S100000 (id (Wv (Proc.devRef .tc main_cst_3)))) := by
  after_results_simp <;> rfl

theorem second_norm : after hostOps0_2 Wv (Proc.devRef .tc main_v36)
    = mulf (mulf (Host.negf (Host.gather gather_S100000_S3200000x1_S3200000_n_0_n_n_0_1_1 (Wv (Proc.devRef .tc main_v19)) (colOf (Wv (Proc.devRef .tc main_v1)))))
          (Wv (Proc.devRef .tc main_v5)))
        (Host.gather gather_S100000_S3200000x1_S3200000_n_0_n_n_0_1_1 (Wv (Proc.devRef .tc main_v19)) (colOf (Wv (Proc.devRef .tc main_v3)))) := by
  after_results_simp <;> rfl
theorem second_x : after hostOps0_2 Wv (Proc.devRef .tc main_v37) = truncf .bf16 (Wv (Proc.devRef .tc main_arg0)) bitsLt_bf16_f32 := by
  after_results_simp <;> rfl
theorem second_w0 : after hostOps0_2 Wv (Proc.devRef .tc main_v38) = truncf .bf16 (Wv (Proc.devRef .tc main_arg2)) bitsLt_bf16_f32 := by
  after_results_simp <;> rfl
theorem second_w1 : after hostOps0_2 Wv (Proc.devRef .tc main_v39) = truncf .bf16 (Wv (Proc.devRef .tc main_arg3)) bitsLt_bf16_f32 := by
  after_results_simp <;> rfl

/-! ## Between the regions -/

theorem third_pre : after hostOps1 Wv (Proc.devRef .tc main_v62)
    = preOf (Wv (Proc.devRef .tc main_v40_0))
        (propOf (Wv (Proc.devRef .tc main_v36)) (Wv (Proc.devRef .tc main_v1)) (Wv (Proc.devRef .tc main_v3)) (Wv (Proc.devRef .tc main_v40_1)))
        (Wv (Proc.devRef .tc main_arg4)) := by
  after_results_simp <;> rfl

theorem clamp_relu : after hostOps1_1 Wv (Proc.devRef .tc main_v63) = reluOf (Wv (Proc.devRef .tc main_v62)) := by
  after_results_simp <;> rfl

theorem fourth_h : after hostOps1_2 Wv (Proc.devRef .tc main_v82) = truncf .bf16 (Wv (Proc.devRef .tc main_v63)) bitsLt_bf16_f32 := by
  after_results_simp <;> rfl
theorem fourth_t : after hostOps1_2 Wv (Proc.devRef .tc main_v83)
    = truncf .bf16 (propOf (Wv (Proc.devRef .tc main_v36)) (Wv (Proc.devRef .tc main_v1)) (Wv (Proc.devRef .tc main_v3)) (Wv (Proc.devRef .tc main_v63))) bitsLt_bf16_f32 := by
  after_results_simp <;> rfl
theorem fourth_w0 : after hostOps1_2 Wv (Proc.devRef .tc main_v84) = truncf .bf16 (Wv (Proc.devRef .tc main_arg5)) bitsLt_bf16_f32 := by
  after_results_simp <;> rfl
theorem fourth_w1 : after hostOps1_2 Wv (Proc.devRef .tc main_v85) = truncf .bf16 (Wv (Proc.devRef .tc main_arg6)) bitsLt_bf16_f32 := by
  after_results_simp <;> rfl
theorem fourth_wl : after hostOps1_2 Wv (Proc.devRef .tc main_v86) = truncf .bf16 (Wv (Proc.devRef .tc main_arg8)) bitsLt_bf16_f32 := by
  after_results_simp <;> rfl
theorem fourth_b2 : after hostOps1_2 Wv (Proc.devRef .tc main_v87) = shapeCast S1x256 (Wv (Proc.devRef .tc main_arg7)) shapeCasts_S256_S1x256 := by
  after_results_simp <;> rfl
theorem fourth_bl : after hostOps1_2 Wv (Proc.devRef .tc main_v88) = shapeCast S1x512 (Wv (Proc.devRef .tc main_arg9)) shapeCasts_S512_S1x512 := by
  after_results_simp <;> rfl

/-! ## The chain, from the launch memory

`W0 … W8` are the buffer contents at the boundaries of @main's segments.  Each buffer a later stage reads is followed
back to the launch memory: through the stage that wrote it, and unchanged across every stretch that does not. -/

variable (m : (ℓ : Loc nD τ sig) → Buf (Elt F) ℓ) (ρ : Dev nD → PrngReg) (c : Dev nD)

/-- A buffer none of the first three stretches writes holds, at the first region's entry, its launch contents. -/
theorem launch_kept (b : Ref sig .tc)
    (h0 : ∀ v : Valuation τ sig (Elt F), after hostOps0 v (Proc.devRef .tc b) = v (Proc.devRef .tc b))
    (h1 : ∀ v : Valuation τ sig (Elt F), after hostOps0_1 v (Proc.devRef .tc b) = v (Proc.devRef .tc b))
    (h2 : ∀ v : Valuation τ sig (Elt F), after hostOps0_2 v (Proc.devRef .tc b) = v (Proc.devRef .tc b)) :
    W3 m ρ c (Proc.devRef .tc b) = m ((c : Thread nD τ).loc b) :=
  (h2 _).trans ((h1 _).trans ((h0 _).trans rfl))

/-- A buffer that neither the first region nor the two stretches after it write holds, when the clamp has run, what
    it held at the first region's entry. -/
theorem mid_kept (b : Ref sig .tc) (hne : ∀ w, Pipeline.arrRef spec0 w ≠ b)
    (h3 : ∀ v : Valuation τ sig (Elt F), after hostOps1 v (Proc.devRef .tc b) = v (Proc.devRef .tc b))
    (h4 : ∀ v : Valuation τ sig (Elt F), after hostOps1_1 v (Proc.devRef .tc b) = v (Proc.devRef .tc b)) :
    W6 m ρ c (Proc.devRef .tc b) = W3 m ρ c (Proc.devRef .tc b) :=
  (h4 _).trans ((h3 _).trans (W4_of_ne m ρ c b hne))

theorem W1_src : W1 m ρ c (Proc.devRef .tc main_v1) = srcOf (m ((c : Thread nD τ).loc main_arg1)) := first_src (W0 m ρ c)
theorem W1_dst : W1 m ρ c (Proc.devRef .tc main_v3) = dstOf (m ((c : Thread nD τ).loc main_arg1)) := first_dst (W0 m ρ c)
theorem W1_w : W1 m ρ c (Proc.devRef .tc main_v5) = wOf (F := F) (m ((c : Thread nD τ).loc main_arg1)) := first_w (W0 m ρ c)

theorem W2_dinv : W2 m ρ c (Proc.devRef .tc main_v19) = dinvOf (F := F) (m ((c : Thread nD τ).loc main_arg1)) :=
  (guard_dinv (W1 m ρ c)).trans (by
    rw [show W1 m ρ c (Proc.devRef .tc main_v15) = _ from first_deg_gt (W0 m ρ c),
      show W1 m ρ c (Proc.devRef .tc main_v18) = _ from first_rsqrt (W0 m ρ c),
      show W1 m ρ c (Proc.devRef .tc main_cst_3) = _ from first_zero (W0 m ρ c)]
    rfl)
theorem W2_src : W2 m ρ c (Proc.devRef .tc main_v1) = srcOf (m ((c : Thread nD τ).loc main_arg1)) :=
  (by host_kept hostOps0_1 : after hostOps0_1 (W1 m ρ c) (Proc.devRef .tc main_v1) = _).trans (W1_src m ρ c)
theorem W2_dst : W2 m ρ c (Proc.devRef .tc main_v3) = dstOf (m ((c : Thread nD τ).loc main_arg1)) :=
  (by host_kept hostOps0_1 : after hostOps0_1 (W1 m ρ c) (Proc.devRef .tc main_v3) = _).trans (W1_dst m ρ c)
theorem W2_w : W2 m ρ c (Proc.devRef .tc main_v5) = wOf (F := F) (m ((c : Thread nD τ).loc main_arg1)) :=
  (by host_kept hostOps0_1 : after hostOps0_1 (W1 m ρ c) (Proc.devRef .tc main_v5) = _).trans (W1_w m ρ c)
theorem W2_arg (b : Ref sig .tc)
    (h0 : ∀ v : Valuation τ sig (Elt F), after hostOps0 v (Proc.devRef .tc b) = v (Proc.devRef .tc b))
    (h1 : ∀ v : Valuation τ sig (Elt F), after hostOps0_1 v (Proc.devRef .tc b) = v (Proc.devRef .tc b)) :
    W2 m ρ c (Proc.devRef .tc b) = m ((c : Thread nD τ).loc b) :=
  (h1 _).trans ((h0 _).trans rfl)

/-- The edge weight, at the first region's entry. -/
theorem W3_norm : W3 m ρ c (Proc.devRef .tc main_v36) = normOf (F := F) (m ((c : Thread nD τ).loc main_arg1)) :=
  (second_norm (W2 m ρ c)).trans (by rw [W2_dinv, W2_src, W2_dst, W2_w]; rfl)
theorem W3_src : W3 m ρ c (Proc.devRef .tc main_v1) = srcOf (m ((c : Thread nD τ).loc main_arg1)) :=
  (by host_kept hostOps0_2 : after hostOps0_2 (W2 m ρ c) (Proc.devRef .tc main_v1) = _).trans (W2_src m ρ c)
theorem W3_dst : W3 m ρ c (Proc.devRef .tc main_v3) = dstOf (m ((c : Thread nD τ).loc main_arg1)) :=
  (by host_kept hostOps0_2 : after hostOps0_2 (W2 m ρ c) (Proc.devRef .tc main_v3) = _).trans (W2_dst m ρ c)

/-- The first region's three operands: the node features and the two first-layer matrices, in the narrower format. -/
theorem entry0_x : V3 m ρ c main_v37 = truncf .bf16 (m ((c : Thread nD τ).loc main_arg0)) bitsLt_bf16_f32 :=
  (second_x (W2 m ρ c)).trans (by
    rw [W2_arg m ρ c main_arg0 (fun v => by host_kept hostOps0) (fun v => by host_kept hostOps0_1)])
theorem entry0_w0 : V3 m ρ c main_v38 = truncf .bf16 (m ((c : Thread nD τ).loc main_arg2)) bitsLt_bf16_f32 :=
  (second_w0 (W2 m ρ c)).trans (by
    rw [W2_arg m ρ c main_arg2 (fun v => by host_kept hostOps0) (fun v => by host_kept hostOps0_1)])
theorem entry0_w1 : V3 m ρ c main_v39 = truncf .bf16 (m ((c : Thread nD τ).loc main_arg3)) bitsLt_bf16_f32 :=
  (second_w1 (W2 m ρ c)).trans (by
    rw [W2_arg m ρ c main_arg3 (fun v => by host_kept hostOps0) (fun v => by host_kept hostOps0_1)])

/-- The clamped first layer, as the second stretch leaves it: over the first region's two results. -/
def hidden : FVec F S100000x3 .f32 :=
  reluOf (preOf (W4 m ρ c (Proc.devRef .tc main_v40_0))
    (propOf (normOf (F := F) (m ((c : Thread nD τ).loc main_arg1))) (srcOf (m ((c : Thread nD τ).loc main_arg1)))
      (dstOf (m ((c : Thread nD τ).loc main_arg1))) (W4 m ρ c (Proc.devRef .tc main_v40_1)))
    (m ((c : Thread nD τ).loc main_arg4)))

theorem W6_hidden : W6 m ρ c (Proc.devRef .tc main_v63) = hidden m ρ c :=
  (clamp_relu (W5 m ρ c)).trans (by
    rw [show W5 m ρ c (Proc.devRef .tc main_v62) = _ from third_pre (W4 m ρ c),
      show W4 m ρ c (Proc.devRef .tc main_v36) = _ from (W4_of_ne m ρ c main_v36 (by decide)).trans (W3_norm m ρ c),
      show W4 m ρ c (Proc.devRef .tc main_v1) = _ from (W4_of_ne m ρ c main_v1 (by decide)).trans (W3_src m ρ c),
      show W4 m ρ c (Proc.devRef .tc main_v3) = _ from (W4_of_ne m ρ c main_v3 (by decide)).trans (W3_dst m ρ c),
      show W4 m ρ c (Proc.devRef .tc main_arg4) = _ from (W4_of_ne m ρ c main_arg4 (by decide)).trans
        (launch_kept m ρ c main_arg4 (fun v => by host_kept hostOps0) (fun v => by host_kept hostOps0_1) (fun v => by host_kept hostOps0_2))]
    rfl)

theorem W6_norm : W6 m ρ c (Proc.devRef .tc main_v36) = normOf (F := F) (m ((c : Thread nD τ).loc main_arg1)) :=
  (mid_kept m ρ c main_v36 (by decide) (fun v => by host_kept hostOps1) (fun v => by host_kept hostOps1_1)).trans (W3_norm m ρ c)
theorem W6_src : W6 m ρ c (Proc.devRef .tc main_v1) = srcOf (m ((c : Thread nD τ).loc main_arg1)) :=
  (mid_kept m ρ c main_v1 (by decide) (fun v => by host_kept hostOps1) (fun v => by host_kept hostOps1_1)).trans (W3_src m ρ c)
theorem W6_dst : W6 m ρ c (Proc.devRef .tc main_v3) = dstOf (m ((c : Thread nD τ).loc main_arg1)) :=
  (mid_kept m ρ c main_v3 (by decide) (fun v => by host_kept hostOps1) (fun v => by host_kept hostOps1_1)).trans (W3_dst m ρ c)
theorem W6_arg (b : Ref sig .tc) (hne : ∀ w, Pipeline.arrRef spec0 w ≠ b)
    (h0 : ∀ v : Valuation τ sig (Elt F), after hostOps0 v (Proc.devRef .tc b) = v (Proc.devRef .tc b))
    (h1 : ∀ v : Valuation τ sig (Elt F), after hostOps0_1 v (Proc.devRef .tc b) = v (Proc.devRef .tc b))
    (h2 : ∀ v : Valuation τ sig (Elt F), after hostOps0_2 v (Proc.devRef .tc b) = v (Proc.devRef .tc b))
    (h3 : ∀ v : Valuation τ sig (Elt F), after hostOps1 v (Proc.devRef .tc b) = v (Proc.devRef .tc b))
    (h4 : ∀ v : Valuation τ sig (Elt F), after hostOps1_1 v (Proc.devRef .tc b) = v (Proc.devRef .tc b)) :
    W6 m ρ c (Proc.devRef .tc b) = m ((c : Thread nD τ).loc b) :=
  (mid_kept m ρ c b hne h3 h4).trans (launch_kept m ρ c b h0 h1 h2)

/-- The second region's seven operands. -/
theorem entry1_h : V7 m ρ c main_v82 = truncf .bf16 (hidden m ρ c) bitsLt_bf16_f32 :=
  (fourth_h (W6 m ρ c)).trans (by rw [W6_hidden])
theorem entry1_t : V7 m ρ c main_v83
    = truncf .bf16 (propOf (normOf (F := F) (m ((c : Thread nD τ).loc main_arg1))) (srcOf (m ((c : Thread nD τ).loc main_arg1)))
        (dstOf (m ((c : Thread nD τ).loc main_arg1))) (hidden m ρ c)) bitsLt_bf16_f32 :=
  (fourth_t (W6 m ρ c)).trans (by rw [W6_hidden, W6_norm, W6_src, W6_dst])
theorem entry1_w0 : V7 m ρ c main_v84 = truncf .bf16 (m ((c : Thread nD τ).loc main_arg5)) bitsLt_bf16_f32 :=
  (fourth_w0 (W6 m ρ c)).trans (by
    rw [W6_arg m ρ c main_arg5 (by decide) (fun v => by host_kept hostOps0) (fun v => by host_kept hostOps0_1) (fun v => by host_kept hostOps0_2)
      (fun v => by host_kept hostOps1) (fun v => by host_kept hostOps1_1)])
theorem entry1_w1 : V7 m ρ c main_v85 = truncf .bf16 (m ((c : Thread nD τ).loc main_arg6)) bitsLt_bf16_f32 :=
  (fourth_w1 (W6 m ρ c)).trans (by
    rw [W6_arg m ρ c main_arg6 (by decide) (fun v => by host_kept hostOps0) (fun v => by host_kept hostOps0_1) (fun v => by host_kept hostOps0_2)
      (fun v => by host_kept hostOps1) (fun v => by host_kept hostOps1_1)])
theorem entry1_wl : V7 m ρ c main_v86 = truncf .bf16 (m ((c : Thread nD τ).loc main_arg8)) bitsLt_bf16_f32 :=
  (fourth_wl (W6 m ρ c)).trans (by
    rw [W6_arg m ρ c main_arg8 (by decide) (fun v => by host_kept hostOps0) (fun v => by host_kept hostOps0_1) (fun v => by host_kept hostOps0_2)
      (fun v => by host_kept hostOps1) (fun v => by host_kept hostOps1_1)])
theorem entry1_b2 : V7 m ρ c main_v87 = shapeCast S1x256 (m ((c : Thread nD τ).loc main_arg7)) shapeCasts_S256_S1x256 :=
  (fourth_b2 (W6 m ρ c)).trans (by
    rw [W6_arg m ρ c main_arg7 (by decide) (fun v => by host_kept hostOps0) (fun v => by host_kept hostOps0_1) (fun v => by host_kept hostOps0_2)
      (fun v => by host_kept hostOps1) (fun v => by host_kept hostOps1_1)])
theorem entry1_bl : V7 m ρ c main_v88 = shapeCast S1x512 (m ((c : Thread nD τ).loc main_arg9)) shapeCasts_S512_S1x512 :=
  (fourth_bl (W6 m ρ c)).trans (by
    rw [W6_arg m ρ c main_arg9 (by decide) (fun v => by host_kept hostOps0) (fun v => by host_kept hostOps0_1) (fun v => by host_kept hostOps0_2)
      (fun v => by host_kept hostOps1) (fun v => by host_kept hostOps1_1)])

/-- The program's result buffer holds what the second region's write-backs leave. -/
theorem result_is_region1 : W8 m ρ c (Proc.devRef .tc main_v89) = (dat1 (V7 m ρ) c).arrAt 7 cfg1.N :=
  W8_arr m ρ c 7
/-- The first region's two results, as the second stretch reads them. -/
theorem first_result0 : W4 m ρ c (Proc.devRef .tc main_v40_0) = (dat0 (V3 m ρ) c).arrAt 3 cfg0.N := W4_arr m ρ c 3
theorem first_result1 : W4 m ρ c (Proc.devRef .tc main_v40_1) = (dat0 (V3 m ρ) c).arrAt 4 cfg0.N := W4_arr m ρ c 4

end Cert.KernelIdeal.HostValue

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.KernelStages.lean ====
/-
  The host stages of the idealized kernel program read at one element, over the extended reals.

  One propagation over the edges — rows of a three-column table taken by source, each weighted by its edge's number,
  added up by destination into zeros — has at `(n, i)` the zero word plus the sum, over the edges whose destination is
  `n`, of the edge's weight times the table's entry in row "source of that edge" and column `i`.  The first layer's
  pre-activation adds three tables entry by entry (the bias a row repeated down the nodes), and the clamp takes the
  maximum with the zero word.
-/
import proofs.«111167_j33036888441456_2_alg».proof.Proof.KernelHost
import proofs.«111167_j33036888441456_2_alg».proof.Proof.LibRowGatherScatter
import proofs.«111167_j33036888441456_2_alg».proof.Proof.LibHostBroadcast
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.StageValue

open Cert.KernelIdeal Cert.KernelIdeal.HostValue Cert.RowGatherScatter
open Idealize.ShloMosaic Idealize.ShloMosaic.ValueIdx

/-- The printed "add rows by an index column" is the general one at these sizes. -/
theorem scatter3_eq : scatter_S100000x3_S3200000x1_S3200000x3_1_0_0_1
    = rowScatterDims 100000 3200000 3 Facts₀.scatter_S100000x3_S3200000x1_S3200000x3_1_0_0_1_wf := rfl
/-- The printed "take rows by an index column" is the general one at these sizes. -/
theorem gather3_eq : gather_S100000x3_S3200000x1_S3200000x3_1_0_n_n_0_1_13
    = rowGatherDims 100000 3200000 3 Facts₀.gather_S100000x3_S3200000x1_S3200000x3_1_0_n_n_0_1_13_wf := rfl

/-- ONE PROPAGATION AT `(n, i)`: the zero word plus, over the edges that end in `n`, weight times the source row's entry. -/
theorem propOf_apply (nrm : FVec Ideal S3200000 .f32) (src dst : IVec S3200000 32) (X : FVec Ideal S100000x3 .f32)
    (n : Fin 100000) (i : Fin 3) :
    propOf nrm src dst X (ix2 n i)
      = Ideal.ofBits .f32 0x00000000#32
        + ∑ e ∈ hits (N := 100000) (colOf dst) n, nrm (ix1 e) * X (ix2 (rowOf (N := 100000) (by decide) (colOf src) e) i) := by
  unfold propOf
  rw [scatter3_eq, scatterAdd_rows_apply]
  refine congrArg₂ (· + ·) ?_ (Finset.sum_congr rfl fun e _ => ?_)
  · exact Cert.HostBroadcast.scalar_apply _ _ _ _
  · rw [mulf_apply, Cert.HostBroadcast.col_apply, gather3_eq, gather_rows_apply (by decide)]

/-- The pre-activation at `(n, h)`. -/
theorem preOf_apply (A0 T : FVec Ideal S100000x3 .f32) (b1 : FVec Ideal S3 .f32) (n : Fin 100000) (h : Fin 3) :
    preOf A0 T b1 (ix2 n h) = (A0 (ix2 n h) + T (ix2 n h)) + b1 (ix1 h) := by
  unfold preOf
  rw [addf_apply, addf_apply, Cert.HostBroadcast.row_apply]

/-- The clamp at `(n, h)`. -/
theorem reluOf_apply (P : FVec Ideal S100000x3 .f32) (n : Fin 100000) (h : Fin 3) :
    reluOf P (ix2 n h) = max (P (ix2 n h)) (Ideal.ofBits .f32 0x00000000#32) := by
  unfold reluOf
  rw [maximumf_apply]
  exact congrArg (max (P (ix2 n h))) (Cert.HostBroadcast.scalar_apply _ _ _ _)

end Cert.KernelIdeal.StageValue

end
-- ==== Proof.Bridge.lean ====
/-
  The two programs build the same edge columns and the same edge weight.

  Both programs cut the edge array into its source and destination rows, wrap a negative node number once by the node
  count and turn the result into an index column; the terms are the same, operation for operation.  They spell the edge
  indicator differently — one converts the bit "source ≠ destination" to a number, the other selects between the words
  of 1.0 and 0.0 by that bit — and these agree, bit by bit.  Everything built from the columns and the indicator (the
  degree, its guarded inverse root, the edge weight) is then the same term on both sides.
-/
import proofs.«111167_j33036888441456_2_alg».proof.Proof.KernelHost
import proofs.«111167_j33036888441456_2_alg».proof.Proof.RefRead
import Idealize.ShloMosaic.Lib.IdealHost
import Idealize.ShloMosaic.Lib.ValueIdx
import Idealize.ShloMosaic.PureOps.Ideal.Laws

set_option maxRecDepth 16384

noncomputable section

namespace Cert.Bridge

open Cert.KernelIdeal.HostValue Cert.ReferenceIdeal.ReadP
open Idealize.ShloMosaic Idealize.ShloMosaic.ValueIdx

variable (x1 : IVec Cert.ReferenceIdeal.S2x3200000 32)

/-- The source column the reference gathers the node features by. -/
theorem col_src_first : colOf (srcOf x1) = val_main_v49 (F := Ideal) x1 := rfl
/-- The destination column the reference adds the weighted features by. -/
theorem col_dst_first : colOf (dstOf x1) = val_main_v58 (F := Ideal) x1 := rfl
/-- The source column of the second propagation. -/
theorem col_src_second : colOf (srcOf x1) = val_main_v78 (F := Ideal) x1 := rfl
/-- The destination column of the second propagation. -/
theorem col_dst_second : colOf (dstOf x1) = val_main_v87 (F := Ideal) x1 := rfl

/-- THE EDGE INDICATOR, BOTH WAYS: the bit read as a number is the choice between the words of 1.0 and 0.0. -/
theorem w_eq : wOf (F := Ideal) x1 = val_main_v6 (F := Ideal) x1 := by
  funext i
  have hL : wOf (F := Ideal) x1 i = (((val_main_v4 (F := Ideal) x1 i).toNat : ℝ) : EReal) := rfl
  have hR : val_main_v6 (F := Ideal) x1 i
      = Scalar.select (val_main_v4 (F := Ideal) x1 i) (Ideal.ofBits .f32 0x3F800000#32) (Ideal.ofBits .f32 0x00000000#32) := rfl
  rw [hL, hR]
  rcases BitVec.eq_zero_or_eq_one (val_main_v4 (F := Ideal) x1 i) with h | h <;> rw [h]
  · rw [select_zero, Ideal.ofBits_zero_f32]; simp
  · rw [select_one, Ideal.ofBits_one_f32]; simp

/-- THE EDGE WEIGHT is one term in both programs. -/
theorem norm_eq : normOf (F := Ideal) x1 = val_main_v37 (F := Ideal) x1 := by
  unfold normOf dinvOf degOf
  rw [w_eq]
  rfl

end Cert.Bridge

end
-- ==== Proof.RefAtIndex.lean ====
/-
  The reference program's result read at an index.

  The reference is a two-round graph network.  A round takes, for every edge `e`, the row of a node table that the
  edge's source names, multiplies it by the edge's weight, and adds it onto the row that the edge's destination names;
  the table so aggregated and the table itself then go through one dense product each, the two products are added, a
  bias is added and the result is rectified.  A last dense layer with a bias gives the output.

  Read at one index, over the extended reals:
  * an aggregated table at `(n, c)` is the zero word plus the sum, over the edges whose destination integer is `n`, of
    the edge's weight times the source row's entry in column `c`;
  * a dense layer at `(n, h)` is the sum over the contracted axis of left entry times right entry;
  * the bias spread down the rows is its entry at the column; the rectifier is the maximum with the zero word.
  The zero word is kept as the word it is printed as.
-/
import proofs.«111167_j33036888441456_2_alg».proof.Proof.RefRead
import proofs.«111167_j33036888441456_2_alg».proof.Proof.LibRowGatherScatter
import proofs.«111167_j33036888441456_2_alg».proof.Proof.LibHostBroadcast

noncomputable section

open scoped BigOperators

namespace Cert.ReferenceIdeal.AtIndex

open Cert.ReferenceIdeal Cert.ReferenceIdeal.ReadP Idealize.ShloMosaic Idealize.ShloMosaic.ValueIdx

variable (x0 : FVec Ideal S100000x64 .f32) (x1 : IVec S2x3200000 32) (x2 x3 : FVec Ideal S64x3 .f32)
  (x4 : FVec Ideal S3 .f32) (x5 x6 : FVec Ideal S3x256 .f32) (x7 : FVec Ideal S256 .f32)
  (x8 : FVec Ideal S256x512 .f32) (x9 : FVec Ideal S512 .f32)

/-! ## The printed records are the row-gather and row-scatter dimension numbers -/

theorem scatter64_eq : scatter_S100000x64_S3200000x1_S3200000x64_1_0_0_1
    = Cert.RowGatherScatter.rowScatterDims 100000 3200000 64 Facts₀.scatter_S100000x64_S3200000x1_S3200000x64_1_0_0_1_wf := rfl

theorem gather64_eq : gather_S100000x64_S3200000x1_S3200000x64_1_0_n_n_0_1_164
    = Cert.RowGatherScatter.rowGatherDims 100000 3200000 64 Facts₀.gather_S100000x64_S3200000x1_S3200000x64_1_0_n_n_0_1_164_wf := rfl

theorem scatter3_eq : scatter_S100000x3_S3200000x1_S3200000x3_1_0_0_1
    = Cert.RowGatherScatter.rowScatterDims 100000 3200000 3 Facts₀.scatter_S100000x3_S3200000x1_S3200000x3_1_0_0_1_wf := rfl

theorem gather3_eq : gather_S100000x3_S3200000x1_S3200000x3_1_0_n_n_0_1_13
    = Cert.RowGatherScatter.rowGatherDims 100000 3200000 3 Facts₀.gather_S100000x3_S3200000x1_S3200000x3_1_0_n_n_0_1_13_wf := rfl

/-! ## First aggregation: the weighted rows of the input summed onto their destinations -/

/-- The per-edge weight spread over 64 columns is read, at `(e, k)`, at edge `e`. -/
theorem idx_w1 (e : Fin 3200000) (k : Fin 64) : idx_main_v43 (idx_main_v51 (ix2 e k)) = ix1 e :=
  funext fun a => Fin.ext (by match a with | ⟨0, _⟩ => rfl)

theorem tx1_apply (n : Fin 100000) (k : Fin 64) :
    val_main_v59 (F := Ideal) x0 x1 (ix2 n k)
      = (Ideal.ofBits .f32 0x00000000#32)
        + ∑ e ∈ Cert.RowGatherScatter.hits (N := 100000) (val_main_v58 (F := Ideal) x1) n,
            val_main_v37 (F := Ideal) x1 (ix1 e)
              * x0 (ix2 (Cert.RowGatherScatter.rowOf (N := 100000) (by decide) (val_main_v49 (F := Ideal) x1) e) k) := by
  unfold val_main_v59
  rw [scatter64_eq]
  refine (Cert.RowGatherScatter.scatterAdd_rows_apply _ (val_main_v42 (F := Ideal)) (val_main_v58 (F := Ideal) x1)
    (val_main_v52 (F := Ideal) x0 x1) n k).trans ?_
  refine congrArg₂ (· + ·) ?_ (Finset.sum_congr rfl fun e _ => ?_)
  · rw [val_main_v42_apply, val_main_cst_10_apply, Ideal.ofBits_def]
  · rw [val_main_v52_apply, val_main_v51_apply, val_main_v43_apply, idx_w1, Ideal.mulf_def]
    refine congrArg (fun t => val_main_v37 (F := Ideal) x1 (ix1 e) * t) ?_
    unfold val_main_v50
    rw [gather64_eq]
    exact Cert.RowGatherScatter.gather_rows_apply (by decide) _ x0 (val_main_v49 (F := Ideal) x1) e k

/-! ## First layer: two dense products, the bias, the rectifier -/

theorem lidx60 (n : Fin 100000) (h : Fin 3) (k : Fin 64) : lidx_main_v60 (ix2 n h) k = ix2 n k :=
  funext fun a => Fin.ext (by match a with | ⟨0, _⟩ => rfl | ⟨1, _⟩ => rfl)

theorem ridx60 (n : Fin 100000) (h : Fin 3) (k : Fin 64) : ridx_main_v60 (ix2 n h) k = ix2 k h :=
  funext fun a => Fin.ext (by match a with | ⟨0, _⟩ => rfl | ⟨1, _⟩ => rfl)

theorem lidx61 (n : Fin 100000) (h : Fin 3) (k : Fin 64) : lidx_main_v61 (ix2 n h) k = ix2 n k :=
  funext fun a => Fin.ext (by match a with | ⟨0, _⟩ => rfl | ⟨1, _⟩ => rfl)

theorem ridx61 (n : Fin 100000) (h : Fin 3) (k : Fin 64) : ridx_main_v61 (ix2 n h) k = ix2 k h :=
  funext fun a => Fin.ext (by match a with | ⟨0, _⟩ => rfl | ⟨1, _⟩ => rfl)

/-- The bias spread down the rows is read, at `(n, h)`, at `h`. -/
theorem idx_b1 (n : Fin 100000) (h : Fin 3) : idx_main_v63 (idx_main_v64 (ix2 n h)) = ix1 h :=
  funext fun a => Fin.ext (by match a with | ⟨0, _⟩ => rfl)

theorem h1_apply (n : Fin 100000) (h : Fin 3) :
    val_main_v66 (F := Ideal) x0 x1 x2 x3 x4 (ix2 n h)
      = max (((∑ k : Fin 64, x0 (ix2 n k) * x2 (ix2 k h))
              + (∑ k : Fin 64, val_main_v59 (F := Ideal) x0 x1 (ix2 n k) * x3 (ix2 k h)))
             + x4 (ix1 h)) (Ideal.ofBits .f32 0x00000000#32) := by
  rw [val_main_v66_apply, val_main_v65_apply, val_main_v62_apply, val_main_v60_apply, val_main_v61_apply,
    val_main_v64_apply, val_main_v63_apply, val_main_call2_v0_apply, val_main_call2_cst_apply]
  simp only [lidx60, ridx60, lidx61, ridx61, idx_b1, Ideal.addf_def, Ideal.maximumf_def, Ideal.ofBits_def]

/-! ## Second layer and the output layer -/

theorem lidx89 (n : Fin 100000) (k : Fin 256) (i : Fin 3) : lidx_main_v89 (ix2 n k) i = ix2 n i :=
  funext fun a => Fin.ext (by match a with | ⟨0, _⟩ => rfl | ⟨1, _⟩ => rfl)

theorem ridx89 (n : Fin 100000) (k : Fin 256) (i : Fin 3) : ridx_main_v89 (ix2 n k) i = ix2 i k :=
  funext fun a => Fin.ext (by match a with | ⟨0, _⟩ => rfl | ⟨1, _⟩ => rfl)

theorem lidx90 (n : Fin 100000) (k : Fin 256) (i : Fin 3) : lidx_main_v90 (ix2 n k) i = ix2 n i :=
  funext fun a => Fin.ext (by match a with | ⟨0, _⟩ => rfl | ⟨1, _⟩ => rfl)

theorem ridx90 (n : Fin 100000) (k : Fin 256) (i : Fin 3) : ridx_main_v90 (ix2 n k) i = ix2 i k :=
  funext fun a => Fin.ext (by match a with | ⟨0, _⟩ => rfl | ⟨1, _⟩ => rfl)

theorem idx_b2 (n : Fin 100000) (k : Fin 256) : idx_main_v92 (idx_main_v93 (ix2 n k)) = ix1 k :=
  funext fun a => Fin.ext (by match a with | ⟨0, _⟩ => rfl)

theorem lidx96 (n : Fin 100000) (j : Fin 512) (k : Fin 256) : lidx_main_v96 (ix2 n j) k = ix2 n k :=
  funext fun a => Fin.ext (by match a with | ⟨0, _⟩ => rfl | ⟨1, _⟩ => rfl)

theorem ridx96 (n : Fin 100000) (j : Fin 512) (k : Fin 256) : ridx_main_v96 (ix2 n j) k = ix2 k j :=
  funext fun a => Fin.ext (by match a with | ⟨0, _⟩ => rfl | ⟨1, _⟩ => rfl)

theorem idx_b3 (n : Fin 100000) (j : Fin 512) : idx_main_v97 (idx_main_v98 (ix2 n j)) = ix1 j :=
  funext fun a => Fin.ext (by match a with | ⟨0, _⟩ => rfl)

/-- The second hidden layer at `(n, k)`. -/
theorem h2_apply (n : Fin 100000) (k : Fin 256) :
    val_main_v95 (F := Ideal) x0 x1 x2 x3 x4 x5 x6 x7 (ix2 n k)
      = max (((∑ i : Fin 3, val_main_v66 (F := Ideal) x0 x1 x2 x3 x4 (ix2 n i) * x5 (ix2 i k))
              + (∑ i : Fin 3, val_main_v88 (F := Ideal) x0 x1 x2 x3 x4 (ix2 n i) * x6 (ix2 i k)))
             + x7 (ix1 k)) (Ideal.ofBits .f32 0x00000000#32) := by
  rw [val_main_v95_apply, val_main_v94_apply, val_main_v91_apply, val_main_v89_apply, val_main_v90_apply,
    val_main_v93_apply, val_main_v92_apply, val_main_call3_v0_apply, val_main_call3_cst_apply]
  simp only [lidx89, ridx89, lidx90, ridx90, idx_b2, Ideal.addf_def, Ideal.maximumf_def, Ideal.ofBits_def]

theorem out_apply (n : Fin 100000) (j : Fin 512) :
    val_main_v99 (F := Ideal) x0 x1 x2 x3 x4 x5 x6 x7 x8 x9 (ix2 n j)
      = (∑ k : Fin 256,
           max (((∑ i : Fin 3, val_main_v66 (F := Ideal) x0 x1 x2 x3 x4 (ix2 n i) * x5 (ix2 i k))
                 + (∑ i : Fin 3, val_main_v88 (F := Ideal) x0 x1 x2 x3 x4 (ix2 n i) * x6 (ix2 i k)))
                + x7 (ix1 k)) (Ideal.ofBits .f32 0x00000000#32)
             * x8 (ix2 k j))
        + x9 (ix1 j) := by
  rw [val_main_v99_apply, val_main_v96_apply, val_main_v98_apply, val_main_v97_apply, idx_b3, Ideal.addf_def]
  refine congrArg (fun t => t + x9 (ix1 j)) (Finset.sum_congr rfl fun k _ => ?_)
  rw [lidx96, ridx96, h2_apply]

/-! ## Second aggregation: the weighted rows of the first hidden layer summed onto their destinations -/

theorem idx_w2 (e : Fin 3200000) (i : Fin 3) : idx_main_v72 (idx_main_v80 (ix2 e i)) = ix1 e :=
  funext fun a => Fin.ext (by match a with | ⟨0, _⟩ => rfl)

theorem tx2_apply (n : Fin 100000) (i : Fin 3) :
    val_main_v88 (F := Ideal) x0 x1 x2 x3 x4 (ix2 n i)
      = (Ideal.ofBits .f32 0x00000000#32)
        + ∑ e ∈ Cert.RowGatherScatter.hits (N := 100000) (val_main_v87 (F := Ideal) x1) n,
            val_main_v37 (F := Ideal) x1 (ix1 e)
              * val_main_v66 (F := Ideal) x0 x1 x2 x3 x4
                  (ix2 (Cert.RowGatherScatter.rowOf (N := 100000) (by decide) (val_main_v78 (F := Ideal) x1) e) i) := by
  unfold val_main_v88
  rw [scatter3_eq]
  refine (Cert.RowGatherScatter.scatterAdd_rows_apply _ (val_main_v71 (F := Ideal)) (val_main_v87 (F := Ideal) x1)
    (val_main_v81 (F := Ideal) x0 x1 x2 x3 x4) n i).trans ?_
  refine congrArg₂ (· + ·) ?_ (Finset.sum_congr rfl fun e _ => ?_)
  · rw [val_main_v71_apply, val_main_cst_15_apply, Ideal.ofBits_def]
  · rw [val_main_v81_apply, val_main_v80_apply, val_main_v72_apply, idx_w2, Ideal.mulf_def]
    refine congrArg (fun t => val_main_v37 (F := Ideal) x1 (ix1 e) * t) ?_
    unfold val_main_v79
    rw [gather3_eq]
    exact Cert.RowGatherScatter.gather_rows_apply (by decide) _ (val_main_v66 (F := Ideal) x0 x1 x2 x3 x4)
      (val_main_v78 (F := Ideal) x1) e i

end Cert.ReferenceIdeal.AtIndex

end
-- ==== Proof.LinearLaw.lean ====
/-
  Linearity of a weighted sum over edges with respect to a contraction, for real numbers inside the extended reals.

  Over the extended reals multiplication does not distribute over addition in general (an infinity times a sum of
  opposite signs), so the law "sum the weighted rows first, then contract with a matrix" equals "contract each row
  with the matrix, then sum the weighted results" is stated here for REAL entries only: every number is the coercion
  of a real, the coercion commutes with finite sums and with products, and over the reals the law is
  distributivity plus an exchange of the two finite sums.

  Also here: the negation of a real is real, and the reciprocal square root of a real at least one is real.
-/
import Mathlib.Data.EReal.Operations
import Mathlib.Algebra.BigOperators.Ring.Finset
import proofs.«111167_j33036888441456_2_alg».proof.Proof.LibRealEntries

noncomputable section

open scoped BigOperators

namespace Cert.Cheb

open Cert.RealEntries
open Idealize.ShloMosaic

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real extended real is the coercion of its real part. -/
theorem eq_coe_toReal_of_isReal {x : EReal} (h : IsReal x) : x = ((x.toReal : ℝ) : EReal) := by
  obtain ⟨r, rfl⟩ := h
  rw [EReal.toReal_coe]

/-- The law over the reals: distributivity and an exchange of the two sums. -/
theorem contract_scatter_real {ι κ : Type} [Fintype κ] (S : Finset ι) (a : ι → ℝ) (x : ι → κ → ℝ) (W : κ → ℝ) :
    ∑ k, (∑ e ∈ S, a e * x e k) * W k = ∑ e ∈ S, a e * ∑ k, x e k * W k := by
  have hL : ∀ k, (∑ e ∈ S, a e * x e k) * W k = ∑ e ∈ S, a e * (x e k * W k) := fun k => by
    rw [Finset.sum_mul]
    exact Finset.sum_congr rfl fun e _ => mul_assoc _ _ _
  have hR : ∀ e, a e * ∑ k, x e k * W k = ∑ k, a e * (x e k * W k) := fun e => Finset.mul_sum _ _ _
  rw [Finset.sum_congr rfl fun k _ => hL k, Finset.sum_congr rfl fun e _ => hR e]
  exact Finset.sum_comm

/-- LINEARITY OF THE SUM OVER EDGES.  For real weights `a e`, real rows `x e` and a real matrix column `W`:
    contracting the weighted sum of the rows with `W` equals the weighted sum of the contracted rows.  Both sums over
    the edges start from a zero `z`. -/
theorem contract_scatter {ι κ : Type} [Fintype κ] [DecidableEq ι] (S : Finset ι) (a : ι → EReal) (x : ι → κ → EReal)
    (W : κ → EReal) (z : EReal) (hz : z = 0)
    (ha : ∀ e ∈ S, Cert.RealEntries.IsReal (a e)) (hx : ∀ e ∈ S, ∀ k, Cert.RealEntries.IsReal (x e k))
    (hW : ∀ k, Cert.RealEntries.IsReal (W k)) :
    ∑ k, (z + ∑ e ∈ S, a e * x e k) * W k = z + ∑ e ∈ S, a e * ∑ k, x e k * W k := by
  subst hz
  have hae : ∀ e ∈ S, a e = (((a e).toReal : ℝ) : EReal) := fun e he => eq_coe_toReal_of_isReal (ha e he)
  have hxe : ∀ e ∈ S, ∀ k, x e k = (((x e k).toReal : ℝ) : EReal) := fun e he k => eq_coe_toReal_of_isReal (hx e he k)
  have hWe : ∀ k, W k = (((W k).toReal : ℝ) : EReal) := fun k => eq_coe_toReal_of_isReal (hW k)
  have hL : ∑ k, (0 + ∑ e ∈ S, a e * x e k) * W k
      = ((∑ k, (∑ e ∈ S, (a e).toReal * (x e k).toReal) * (W k).toReal : ℝ) : EReal) := by
    rw [coe_finset_sum]
    refine Finset.sum_congr rfl fun k _ => ?_
    rw [zero_add, EReal.coe_mul, coe_finset_sum, ← hWe k]
    refine congrArg (· * W k) ?_
    refine Finset.sum_congr rfl fun e he => ?_
    rw [EReal.coe_mul, ← hae e he, ← hxe e he k]
  have hR : 0 + ∑ e ∈ S, a e * ∑ k, x e k * W k
      = ((∑ e ∈ S, (a e).toReal * ∑ k, (x e k).toReal * (W k).toReal : ℝ) : EReal) := by
    rw [zero_add, coe_finset_sum]
    refine Finset.sum_congr rfl fun e he => ?_
    rw [EReal.coe_mul, coe_finset_sum, ← hae e he]
    refine congrArg (a e * ·) ?_
    refine Finset.sum_congr rfl fun k _ => ?_
    rw [EReal.coe_mul, ← hxe e he k, ← hWe k]
  rw [hL, hR, contract_scatter_real]

/-- The negation of a real is real. -/
theorem isReal_neg {x : EReal} (h : IsReal x) : IsReal (-x) := by
  obtain ⟨r, rfl⟩ := h
  exact ⟨-r, (EReal.coe_neg r).symm⟩

/-- The reciprocal square root of a real number at least one is real: the argument is neither negative nor zero. -/
theorem isReal_rsqrt_of_one_le (r : ℝ) (h : 1 ≤ r) : IsReal (Idealize.ShloMosaic.Ideal.rsqrt (r : EReal)) := by
  rw [Ideal.rsqrt_coe, if_neg (by linarith), if_neg (by linarith)]
  exact ⟨_, rfl⟩

end Cert.Cheb

end
-- ==== Proof.LibVectorGatherScatter.lean ====
/-
  Entries of a vector taken by index and added by index, read at one element.

  For a vector `x : [N]` and a column of integers `idx : [E, 1]`:

  * taking entries — the gather whose result `[E]` has at `e` the entry of `x` that `idx (e, 0)` names — reads at `e`
    the entry `x r`, where `r` is `idx (e, 0)` as a signed integer brought into `[0, N − 1]`;
  * adding entries — the scatter that adds entry `e` of `u : [E]` onto the entry of `x` that `idx (e, 0)` names, an
    entry named outside `[0, N)` being dropped — has at `n`, over the extended reals, the entry `x n` plus the sum of
    `u e` over exactly those `e` whose integer `idx (e, 0)` is `n`.

  These are the one-axis siblings of the row gather and the row scatter-add of a table: the operand's only axis is
  the indexed one, so nothing is carried along and entry `e` of the updates lands on one entry of the operand.
-/
import Idealize.ShloMosaic.Lib.ValueIdx
import Idealize.ShloMosaic.PureOps.Ideal.Laws

noncomputable section

open scoped BigOperators

namespace Cert.VectorGatherScatter

open Idealize.ShloMosaic Idealize.ShloMosaic.ValueIdx

/-! ## A rank-1 index set is its one coordinate range -/

/-- A rank-1 index set is the range of its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Taking entries -/

section Gather
variable {α : Type}

/-- The dimension numbers of "take the entries `idx` of an `[N]` vector": the one axis collapsed and indexed, no
    axis carried. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRIES TAKEN, READ AT `e`: the vector at the named entry, the integer `idx (e, 0)` read signed and brought
    into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Adding entries -/

section Scatter

/-- The dimension numbers of "add the entries of `u : [E]` onto the entries `idx` of an `[N]` vector": the one axis
    inserted and indexed, the updates without a window. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e` starts at the integer `idx (e, 0)` read signed; -/
theorem start_vec (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- it has no window: its window coordinate on the one axis is nothing. -/
theorem window_vec (e : Fin E) : (vecScatterDims N E wf).window (ix1 e) 0 = 0 := by
  unfold ScatterDims.window
  rw [dif_neg (show (0 : Fin 1) ∉ (vecScatterDims N E wf).sKept from
    (by decide : (0 : Fin 1) ∉ (List.finRange 1).filter (· ∉ ([0] : List (Fin 1)))))]

/-- WHERE UPDATE `e` LANDS: on `n` exactly when its integer is `n`. -/
theorem resultIdx?_vec (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  constructor
  · intro h
    split at h
    · rename_i hin
      have h' := Option.some.inj h
      have h0 := congrArg (fun f => (f 0).val) h'
      simp only [start_vec, window_vec] at h0
      have hb := hin 0
      rw [start_vec, window_vec] at hb
      have : ((idx (ix2 e 0)).toInt + ((0 : Nat) : Int)).toNat = n.val := h0
      omega
    · exact absurd h (by simp)
  · intro hr
    have h0 : 0 ≤ (vecScatterDims N E wf).start (ix1 e) idx 0 + (vecScatterDims N E wf).window (ix1 e) 0
        ∧ (vecScatterDims N E wf).start (ix1 e) idx 0 + (vecScatterDims N E wf).window (ix1 e) 0
          < (⟨1, ![N]⟩ : Shape).size 0 := by
      rw [start_vec, window_vec, hr]
      have := n.isLt
      refine ⟨by omega, ?_⟩
      show ((n.val : Int) + ((0 : Nat) : Int)) < ((N : Nat) : Int)
      omega
    have hin : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := fun a => match a with
      | ⟨0, _⟩ => h0
    rw [dif_pos hin]
    refine congrArg some ?_
    funext a
    refine Fin.ext ?_
    match a with
    | ⟨0, _⟩ =>
      show ((vecScatterDims N E wf).start (ix1 e) idx 0 + (vecScatterDims N E wf).window (ix1 e) 0).toNat = n.val
      rw [start_vec, window_vec, hr]; omega

/-- The updates that land on entry `n`: the entries of the index column whose integer is `n`. -/
def hits (idx : IVec ⟨2, ![E, 1]⟩ w) (n : Fin N) : Finset (Fin E) :=
  Finset.univ.filter fun e => (idx (ix2 e 0)).toInt = (n.val : Int)

/-- An update is among the hits of `n` exactly when its integer is `n`. -/
theorem mem_hits (idx : IVec ⟨2, ![E, 1]⟩ w) (n : Fin N) (e : Fin E) :
    e ∈ hits idx n ↔ (idx (ix2 e 0)).toInt = (n.val : Int) := by
  unfold hits
  rw [Finset.mem_filter]
  exact ⟨fun h => h.2, fun h => ⟨Finset.mem_univ e, h⟩⟩

/-- THE ENTRIES ADDED, READ AT `n` over the extended reals: the vector's entry plus the sum of the updates that land
    on `n`. -/
theorem scatterAdd_vec_apply (x : FVec Ideal ⟨1, ![N]⟩ .f32) (idx : IVec ⟨2, ![E, 1]⟩ w)
    (u : FVec Ideal ⟨1, ![E]⟩ .f32) (n : Fin N) :
    Host.scatterAdd (vecScatterDims N E wf) x idx u (ix1 n) = x (ix1 n) + ∑ e ∈ hits idx n, u (ix1 e) := by
  show Ideal.hostScatterAdd (vecScatterDims N E wf) x idx u (ix1 n) = _
  unfold Ideal.hostScatterAdd
  refine congrArg (fun s => x (ix1 n) + s) ?_
  rw [Finset.sum_filter, sum_idx1]
  unfold hits
  rw [Finset.sum_filter]
  refine Finset.sum_congr rfl fun e _ => ?_
  by_cases he : (idx (ix2 e 0)).toInt = (n.val : Int)
  · rw [if_pos he, if_pos ((resultIdx?_vec wf idx e n).mpr he)]
  · rw [if_neg he, if_neg (fun h => he ((resultIdx?_vec wf idx e n).mp h))]

end Scatter

end Cert.VectorGatherScatter

end
-- ==== Proof.NormReal.lean ====
/-
  The per-edge weight of the reference is a real number, for every integer input.

  The weight of edge `e` is  ((− dinv[src e]) · w e) · dinv[dst e],  where
    * `w e` is 1.0 when the two ends of the edge differ and 0.0 otherwise — a real number either way;
    * `deg n` is 0.0 plus the sum of `w e` over the edges whose source integer is `n` — a finite sum of reals;
    * `dinv n` is  1/√(max (deg n) 1)  when `deg n > 0` and 0.0 otherwise: the maximum is a real number at least one,
      so its reciprocal square root is a real number;
    * the two gathers read `dinv` at some entry, whatever the index columns hold.
  Negation and products of real numbers are real.  No hypothesis on the integers is used.
-/
import proofs.«111167_j33036888441456_2_alg».proof.Proof.RefRead
import proofs.«111167_j33036888441456_2_alg».proof.Proof.LibVectorGatherScatter
import proofs.«111167_j33036888441456_2_alg».proof.Proof.LibRealEntries
import proofs.«111167_j33036888441456_2_alg».proof.Proof.LinearLaw
import Idealize.ShloMosaic.Lib.IdealHost

noncomputable section

open scoped BigOperators

namespace Cert.ReferenceIdeal.NormReal

open Cert.ReferenceIdeal Cert.ReferenceIdeal.Gen Cert.ReferenceIdeal.ReadP
open Idealize.ShloMosaic Idealize.ShloMosaic.ValueIdx
open Cert.RealEntries Cert.VectorGatherScatter Cert.Cheb

/-! ## The two constants and the two scalar facts -/

/-- The single-precision word of 1.0 denotes a real number. -/
theorem isReal_one_word : IsReal (Ideal.ofBits .f32 0x3F800000#32) :=
  ⟨1, by rw [Ideal.ofBits_one_f32]; exact EReal.coe_one.symm⟩

/-- A selection between two real numbers is a real number, whatever the selecting bit. -/
theorem isReal_select (c : BitVec 1) {a b : EReal} (ha : IsReal a) (hb : IsReal b) :
    IsReal (Scalar.select c a b) := by
  unfold Scalar.select
  split
  · exact ha
  · exact hb

/-- For a real `x` the maximum of `x` and 1.0 is a real number at least one, so its reciprocal square root is real. -/
theorem isReal_rsqrt_max_one {x : EReal} (h : IsReal x) :
    IsReal (Ideal.rsqrt (max x (Ideal.ofBits .f32 0x3F800000#32))) := by
  obtain ⟨r, rfl⟩ := h
  have hmax : max (r : EReal) (Ideal.ofBits .f32 0x3F800000#32) = ((max r 1 : ℝ) : EReal) := by
    rw [Ideal.ofBits_one_f32, ← EReal.coe_one]
    exact (EReal.coe_strictMono.monotone.map_max).symm
  rw [hmax]
  exact isReal_rsqrt_of_one_le _ (le_max_right _ _)

/-! ## The stages -/

/-- `w e`: 1.0 or 0.0. -/
theorem w_real (x1 : IVec S2x3200000 32) (i : S3200000.Idx) : IsReal (val_main_v6 (F := Ideal) x1 i) := by
  rw [val_main_v6_apply, val_main_v5_apply, val_main_call0_v0_apply, val_main_call0_v1_apply, val_main_cst_apply,
    val_main_cst_0_apply, Ideal.ofBits_def, Ideal.ofBits_def]
  exact isReal_select _ isReal_one_word isReal_zero_word

/-- `deg n` read at an entry: 0.0 plus the sum of `w e` over the edges whose source integer is `n`. -/
theorem deg_eq (x1 : IVec S2x3200000 32) (n : Fin 100000) :
    val_main_v14 (F := Ideal) x1 (ix1 n)
      = val_main_v7 (F := Ideal) (ix1 n)
        + ∑ e ∈ hits (N := 100000) (E := 3200000) (w := 32) (val_main_v13 (F := Ideal) x1) n,
            val_main_v6 (F := Ideal) x1 (ix1 e) :=
  scatterAdd_vec_apply (N := 100000) (E := 3200000) (w := 32) Facts₀.scatter_S100000_S3200000x1_S3200000_n_0_0_1_wf
    (val_main_v7 (F := Ideal)) (val_main_v13 (F := Ideal) x1) (val_main_v6 (F := Ideal) x1) n

/-- `deg n` is real. -/
theorem deg_real (x1 : IVec S2x3200000 32) (n : Fin 100000) : IsReal (val_main_v14 (F := Ideal) x1 (ix1 n)) := by
  rw [deg_eq, val_main_v7_apply, val_main_cst_1_apply, Ideal.ofBits_def]
  exact isReal_zero_word.add (IsReal.sum _ _ fun e _ => w_real x1 (ix1 e))

/-- `dinv n` is real. -/
theorem dinv_real (x1 : IVec S2x3200000 32) (n : Fin 100000) : IsReal (val_main_v20 (F := Ideal) x1 (ix1 n)) := by
  rw [val_main_v20_apply]
  refine isReal_select _ ?_ ?_
  · rw [val_main_v19_apply, val_main_v18_apply, val_main_v17_apply, val_main_cst_4_apply, Ideal.hostUnary_rsqrt_def,
      Ideal.maximumf_def, Ideal.ofBits_def]
    exact isReal_rsqrt_max_one (deg_real x1 n)
  · rw [val_main_call1_v1_apply, val_main_call1_v0_apply, val_main_cst_5_apply, Ideal.ofBits_def]
    exact isReal_zero_word

/-- `dinv` gathered by the source column is real: the gather reads `dinv` at some entry. -/
theorem src_dinv_real (x1 : IVec S2x3200000 32) (e : Fin 3200000) :
    IsReal (val_main_v27 (F := Ideal) x1 (ix1 e)) :=
  Eq.mpr (congrArg IsReal (gather_vec_apply (N := 100000) (E := 3200000) (w := 32) (by omega)
      Facts₀.gather_S100000_S3200000x1_S3200000_n_0_n_n_0_1_1_wf (val_main_v20 (F := Ideal) x1)
      (val_main_v26 (F := Ideal) x1) e))
    (dinv_real x1 _)

/-- `dinv` gathered by the destination column is real. -/
theorem dst_dinv_real (x1 : IVec S2x3200000 32) (e : Fin 3200000) :
    IsReal (val_main_v36 (F := Ideal) x1 (ix1 e)) :=
  Eq.mpr (congrArg IsReal (gather_vec_apply (N := 100000) (E := 3200000) (w := 32) (by omega)
      Facts₀.gather_S100000_S3200000x1_S3200000_n_0_n_n_0_1_1_wf (val_main_v20 (F := Ideal) x1)
      (val_main_v35 (F := Ideal) x1) e))
    (dinv_real x1 _)

/-- THE WEIGHT OF AN EDGE IS REAL. -/
theorem norm_real (x1 : IVec S2x3200000 32) (e : Fin 3200000) :
    Cert.RealEntries.IsReal (val_main_v37 (F := Ideal) x1 (ValueIdx.ix1 e)) := by
  rw [val_main_v37_apply, val_main_v29_apply, val_main_v28_apply, Ideal.mulf_def, Ideal.mulf_def, Ideal.hostNegf_def,
    Ideal.negf_def]
  exact ((isReal_neg (src_dinv_real x1 e)).mul (w_real x1 (ix1 e))).mul (dst_dinv_real x1 e)

end Cert.ReferenceIdeal.NormReal

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Region0Value.lean ====
/-
  What the first kernel region leaves in its two output arrays, for any contents on entry.

  Each grid point t stages rows 4000·t … 4000·t + 3999 of the [100000, 64] operand and the two whole [64, 3] weight
  matrices, and writes the two [4000, 3] products back to the same rows of the two outputs.  The 25 row blocks tile
  the 100000 rows, so each output array ends as the plain matrix product of the operand with one weight matrix:
  entry (n, h) is the sum over k of x (n, k) · w (k, h).
-/
import proofs.«111167_j33036888441456_2_alg».proof.Proof.Gen.KernelIdeal.Frame
import proofs.«111167_j33036888441456_2_alg».proof.Proof.LibPlainProduct
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## The body's two products at an index -/

/-- The first product the body stores: row p of the staged block against column q of the first weight matrix. -/
theorem first_product_apply (x0 : Vec Ideal S4000x64 .bf16) (x1 : Vec Ideal S64x3 .bf16) (p : Fin 4000) (q : Fin 3) :
    k0_pay2 x0 x1 (ix2 p q) = ∑ k : Fin 64, x0 (ix2 p k) * x1 (ix2 k q) := by
  unfold k0_pay2 k0_pay1
  rw [shapeCast_self, shapeCast_self]
  exact Cert.PlainProduct.matmul_nn_apply dot_S4000x64_S64x3_S4000x3_1_0_0_1_n_n_wf none x0 x1 p q

/-- The second product the body stores: the same rows against the second weight matrix. -/
theorem second_product_apply (x0 : Vec Ideal S4000x64 .bf16) (x2 : Vec Ideal S64x3 .bf16) (p : Fin 4000) (q : Fin 3) :
    k0_pay3 x0 x2 (ix2 p q) = ∑ k : Fin 64, x0 (ix2 p k) * x2 (ix2 k q) := by
  unfold k0_pay3 k0_pay1
  rw [shapeCast_self, shapeCast_self]
  exact Cert.PlainProduct.matmul_nn_apply dot_S4000x64_S64x3_S4000x3_1_0_0_1_n_n_wf none x0 x2 p q

variable (V : (c : Dev nD) → (b : Ref sig .tc) → Buf (Elt Ideal) ((c : Thread nD τ).loc b))

/-! ## The whole-array product, and each point's block of it -/

/-- The body loads and stores whole staging buffers: through the rectangle at offsets zero. -/
theorem zero_offsets : (![0, 0] : Fin 2 → Nat) = fun _ => 0 := funext fun a => by fin_cases a <;> rfl

/-- The [100000, 64] operand times a [64, 3] weight matrix: entry (n, h) is the sum over k of X (n, k) · W (k, h). -/
def rowsTimes (X : S100000x64.Idx → EReal) (W : S64x3.Idx → EReal) : S100000x3.Idx → EReal :=
  fun i => ∑ k : Fin 64, X (ix2 (⟨(i 0).val, idx2_lt0 i⟩ : Fin 100000) k) * W (ix2 k (⟨(i 1).val, idx2_lt1 i⟩ : Fin 3))

/-- The whole-array product at (n, h). -/
theorem rowsTimes_apply (X : S100000x64.Idx → EReal) (W : S64x3.Idx → EReal) (n : Fin 100000) (h : Fin 3) :
    rowsTimes X W (ix2 n h) = ∑ k : Fin 64, X (ix2 n k) * W (ix2 k h) := rfl

/-- The index maps over the 25 grid points: the operand's and the two outputs' block index is (t, 0), the weight
    matrices' is (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The operand's block at point t is rows 4000·t … 4000·t + 3999 of the operand. -/
theorem operand_block_apply (c : Dev nD) (t : Fin cfg0.N) (x : S4000x64.Idx) (i : S100000x64.Idx)
    (h0 : (i 0).val = 4000 * t.val + (x 0).val) (h1 : (i 1).val = (x 1).val) :
    (iblk0 V c 0 t : Vec Ideal S4000x64 .bf16) x = (V c main_v37 : S100000x64.Idx → EReal) i := by
  obtain ⟨e0, e1, -⟩ := index_facts0 t
  unfold iblk0
  rw [View.read_apply]
  show V c main_v37 _ = V c main_v37 _
  refine congrArg (V c main_v37) ?_
  funext a; apply Fin.ext
  match a with
  | ⟨0, _⟩ => show win0_0.index t (0 : Fin 2) * 4000 + 1 * (x 0).val = (i 0).val; rw [e0, h0]; omega
  | ⟨1, _⟩ => show win0_0.index t (1 : Fin 2) * 64 + 1 * (x 1).val = (i 1).val; rw [e1, h1]; omega

/-- The first weight matrix's block at every point is the whole matrix. -/
theorem first_weights_block (c : Dev nD) (t : Fin cfg0.N) :
    (iblk0 V c 1 t : Vec Ideal S64x3 .bf16) = (V c main_v38 : S64x3.Idx → EReal) := by
  obtain ⟨-, -, e0, e1, -⟩ := index_facts0 t
  funext x
  unfold iblk0
  rw [View.read_apply]
  show V c main_v38 _ = V c main_v38 x
  refine congrArg (V c main_v38) ?_
  funext a; apply Fin.ext
  match a with
  | ⟨0, _⟩ => show win0_1.index t (0 : Fin 2) * 64 + 1 * (x 0).val = (x 0).val; rw [e0]; omega
  | ⟨1, _⟩ => show win0_1.index t (1 : Fin 2) * 3 + 1 * (x 1).val = (x 1).val; rw [e1]; omega

/-- The second weight matrix's block at every point is the whole matrix. -/
theorem second_weights_block (c : Dev nD) (t : Fin cfg0.N) :
    (iblk0 V c 2 t : Vec Ideal S64x3 .bf16) = (V c main_v39 : S64x3.Idx → EReal) := by
  obtain ⟨-, -, -, -, e0, e1, -⟩ := index_facts0 t
  funext x
  unfold iblk0
  rw [View.read_apply]
  show V c main_v39 _ = V c main_v39 x
  refine congrArg (V c main_v39) ?_
  funext a; apply Fin.ext
  match a with
  | ⟨0, _⟩ => show win0_2.index t (0 : Fin 2) * 64 + 1 * (x 0).val = (x 0).val; rw [e0]; omega
  | ⟨1, _⟩ => show win0_2.index t (1 : Fin 2) * 3 + 1 * (x 1).val = (x 1).val; rw [e1]; omega

/-- A product of a staged row block with a whole weight matrix is the same rows of the whole-array product: when the
    staged block x0 is rows 4000·b … of X and the staged weights are W, the product at block index y is the
    whole-array product at the array index i that y names in block b. -/
theorem block_of_rowsTimes (pay : Vec Ideal S4000x64 .bf16 → Vec Ideal S64x3 .bf16 → FVec Ideal S4000x3 .f32)
    (hpay : ∀ (x0 : Vec Ideal S4000x64 .bf16) (x1 : Vec Ideal S64x3 .bf16) (p : Fin 4000) (q : Fin 3),
      pay x0 x1 (ix2 p q) = ∑ k : Fin 64, x0 (ix2 p k) * x1 (ix2 k q))
    (x0 : Vec Ideal S4000x64 .bf16) (x1 : Vec Ideal S64x3 .bf16)
    (X : S100000x64.Idx → EReal) (W : S64x3.Idx → EReal) (b : ℕ)
    (hx0 : ∀ (x : S4000x64.Idx) (i : S100000x64.Idx), (i 0).val = 4000 * b + (x 0).val → (i 1).val = (x 1).val → x0 x = X i)
    (hx1 : x1 = W)
    (y : S4000x3.Idx) (i : S100000x3.Idx) (hi0 : (i 0).val = 4000 * b + (y 0).val) (hi1 : (i 1).val = (y 1).val) :
    pay x0 x1 y = rowsTimes X W i := by
  obtain ⟨p, q, rfl⟩ : ∃ (p : Fin 4000) (q : Fin 3), y = ix2 p q := ⟨y 0, y 1, eq_ix2 y⟩
  obtain ⟨n, h, rfl⟩ : ∃ (n : Fin 100000) (h : Fin 3), i = ix2 n h := ⟨i 0, i 1, eq_ix2 i⟩
  subst hx1
  rw [hpay]
  show _ = ∑ k : Fin 64, X (ix2 n k) * x1 (ix2 k h)
  obtain rfl : h = q := Fin.ext hi1
  refine Finset.sum_congr rfl fun k _ => ?_
  rw [hx0 (ix2 p k) (ix2 n k) hi0 rfl]

/-! ## The first output -/

/-- What point t writes back to the first output is block t of the whole-array product with the first weights. -/
theorem flushed_first (c : Dev nD) (t : Fin cfg0.N) :
    (dat0 (F := Ideal) V c).flushed 3 t
      = ((cfg0.win 3).blk t).view.read (Elt Ideal) (rowsTimes (V c main_v37) (V c main_v38)) := by
  show (cfg0.win 3).cut (grid0.coords t) ((dat0 V c).after 3 t) = _
  rw [after0_3]
  unfold out0_3
  rw [View.canon_unit_zero zero_offsets]
  simp only [View.ld_unit_zero (S := S4000x64) zero_offsets, View.ld_unit_zero (S := S64x3) zero_offsets]
  obtain ⟨-, -, -, -, -, -, e0, e1, -⟩ := index_facts0 t
  funext j
  show k0_pay2 (iblk0 V c 0 t) (iblk0 V c 1 t) ((cfg0.win 3).xinj (grid0.coords t) j)
    = rowsTimes (V c main_v37) (V c main_v38) (((cfg0.win 3).blk t).view.emb j)
  refine block_of_rowsTimes k0_pay2 first_product_apply (iblk0 V c 0 t) (iblk0 V c 1 t) (V c main_v37) (V c main_v38) t.val
    (fun x i h0 h1 => operand_block_apply V c t x i h0 h1) (first_weights_block V c t) _ _ ?_ ?_
  · show win0_3.index t (0 : Fin 2) * 4000 + 1 * (j 0).val = 4000 * t.val + (j 0).val; rw [e0]; omega
  · show win0_3.index t (1 : Fin 2) * 3 + 1 * (j 1).val = (j 1).val; rw [e1]; omega

/-- An index of the first output is in point t's block iff each coordinate is in the block's range on its axis. -/
theorem mem_block_first (t : Fin cfg0.N) (i : S100000x3.Idx) :
    i ∈ ((cfg0.win 3).blk t).view.set ↔ ∀ a : Fin 2, win0_3.index t a * S4000x3.size a ≤ (i a).val ∧ (i a).val < win0_3.index t a * S4000x3.size a + S4000x3.size a := by
  show i ∈ ((View.whole main_v40_0).slice (win0_3.rect t)).set ↔ _
  rw [View.set_slice_whole, Rect.mem_set_unit]
  exact Iff.rfl

/-- Row r of the first output is in the block of point r / 4000: the 25 blocks of 4000 rows tile the array. -/
theorem covered_first (i : S100000x3.Idx) :
    ∃ t : Fin cfg0.N, (cfg0.win 3).flush t = true ∧ i ∈ ((cfg0.win 3).blk t).view.set := by
  have hi0 : (i 0).val < 100000 := idx2_lt0 i
  have hi1 : (i 1).val < 3 := idx2_lt1 i
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e0, e1, -⟩ := index_facts0 t
  refine ⟨t, flush0_3 t, ?_⟩
  rw [mem_block_first]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 3 ≤ (i 1).val ∧ (i 1).val < win0_3.index t (1 : Fin 2) * 3 + 3
    rw [e1]; omega

/-- The first output array after the region: the operand times the first weight matrix. -/
theorem first_array (c : Dev nD) :
    (dat0 (F := Ideal) V c).arrAt 3 cfg0.N = rowsTimes (V c main_v37) (V c main_v38) :=
  (dat0 V c).arrAt_eq_of_cover 3 (rowsTimes (V c main_v37) (V c main_v38)) (fun t _ => flushed_first V c t) covered_first

/-- The first output at (n, h): the sum over k of operand (n, k) · first weights (k, h), the operand and the weights named
    as arrays of extended reals. -/
theorem region0_first (c : Dev nD) (X : S100000x64.Idx → EReal) (W : S64x3.Idx → EReal)
    (hX : V c main_v37 = X) (hW : V c main_v38 = W) (n : Fin 100000) (h : Fin 3) :
    (dat0 (F := Ideal) V c).arrAt 3 cfg0.N (ix2 n h) = (∑ k : Fin 64, X (ix2 n k) * W (ix2 k h) : EReal) := by
  subst hX hW
  exact congrFun (first_array V c) (ix2 n h)

/-! ## The second output -/

/-- What point t writes back to the second output is block t of the whole-array product with the second weights. -/
theorem flushed_second (c : Dev nD) (t : Fin cfg0.N) :
    (dat0 (F := Ideal) V c).flushed 4 t
      = ((cfg0.win 4).blk t).view.read (Elt Ideal) (rowsTimes (V c main_v37) (V c main_v39)) := by
  show (cfg0.win 4).cut (grid0.coords t) ((dat0 V c).after 4 t) = _
  rw [after0_4]
  unfold out0_4
  rw [View.canon_unit_zero zero_offsets]
  simp only [View.ld_unit_zero (S := S4000x64) zero_offsets, View.ld_unit_zero (S := S64x3) zero_offsets]
  obtain ⟨-, -, -, -, -, -, -, -, e0, e1⟩ := index_facts0 t
  funext j
  show k0_pay3 (iblk0 V c 0 t) (iblk0 V c 2 t) ((cfg0.win 4).xinj (grid0.coords t) j)
    = rowsTimes (V c main_v37) (V c main_v39) (((cfg0.win 4).blk t).view.emb j)
  refine block_of_rowsTimes k0_pay3 second_product_apply (iblk0 V c 0 t) (iblk0 V c 2 t) (V c main_v37) (V c main_v39) t.val
    (fun x i h0 h1 => operand_block_apply V c t x i h0 h1) (second_weights_block V c t) _ _ ?_ ?_
  · show win0_4.index t (0 : Fin 2) * 4000 + 1 * (j 0).val = 4000 * t.val + (j 0).val; rw [e0]; omega
  · show win0_4.index t (1 : Fin 2) * 3 + 1 * (j 1).val = (j 1).val; rw [e1]; omega

/-- An index of the second output is in point t's block iff each coordinate is in the block's range on its axis. -/
theorem mem_block_second (t : Fin cfg0.N) (i : S100000x3.Idx) :
    i ∈ ((cfg0.win 4).blk t).view.set ↔ ∀ a : Fin 2, win0_4.index t a * S4000x3.size a ≤ (i a).val ∧ (i a).val < win0_4.index t a * S4000x3.size a + S4000x3.size a := by
  show i ∈ ((View.whole main_v40_1).slice (win0_4.rect t)).set ↔ _
  rw [View.set_slice_whole, Rect.mem_set_unit]
  exact Iff.rfl

/-- Row r of the second output is in the block of point r / 4000. -/
theorem covered_second (i : S100000x3.Idx) :
    ∃ t : Fin cfg0.N, (cfg0.win 4).flush t = true ∧ i ∈ ((cfg0.win 4).blk t).view.set := by
  have hi0 : (i 0).val < 100000 := idx2_lt0 i
  have hi1 : (i 1).val < 3 := idx2_lt1 i
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, e0, e1⟩ := index_facts0 t
  refine ⟨t, flush0_4 t, ?_⟩
  rw [mem_block_second]
  intro a
  match a with
  | ⟨0, _⟩ =>
    show win0_4.index t (0 : Fin 2) * 4000 ≤ (i 0).val ∧ (i 0).val < win0_4.index t (0 : Fin 2) * 4000 + 4000
    rw [e0, ht]; omega
  | ⟨1, _⟩ =>
    show win0_4.index t (1 : Fin 2) * 3 ≤ (i 1).val ∧ (i 1).val < win0_4.index t (1 : Fin 2) * 3 + 3
    rw [e1]; omega

/-- The second output array after the region: the operand times the second weight matrix. -/
theorem second_array (c : Dev nD) :
    (dat0 (F := Ideal) V c).arrAt 4 cfg0.N = rowsTimes (V c main_v37) (V c main_v39) :=
  (dat0 V c).arrAt_eq_of_cover 4 (rowsTimes (V c main_v37) (V c main_v39)) (fun t _ => flushed_second V c t) covered_second

/-- The second output at (n, h): the sum over k of operand (n, k) · second weights (k, h), the operand and the weights
    named as arrays of extended reals. -/
theorem region0_second (c : Dev nD) (X : S100000x64.Idx → EReal) (W : S64x3.Idx → EReal)
    (hX : V c main_v37 = X) (hW : V c main_v39 = W) (n : Fin 100000) (h : Fin 3) :
    (dat0 (F := Ideal) V c).arrAt 4 cfg0.N (ix2 n h) = (∑ k : Fin 64, X (ix2 n k) * W (ix2 k h) : EReal) := by
  subst hX hW
  exact congrFun (second_array V c) (ix2 n h)

end Cert.KernelIdeal.RegionValue

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Region1Value.lean ====
/-
  What the second kernel region leaves in its output array, for any contents on entry.

  Each grid point t stages rows 4000·t … 4000·t + 3999 of the two [100000, 3] operands and, whole, the two [3, 256]
  weight matrices, the [1, 256] bias row, the [256, 512] weight matrix and the [1, 512] bias row, and writes
  max(h·w0 + t·w1 + b2, 0)·wl + bl back to the same rows of the [100000, 512] output.  The 25 row blocks tile the 100000
  rows, so the output array ends as that expression of the whole arrays, entry by entry.
-/
import proofs.«111167_j33036888441456_2_alg».proof.Proof.Gen.KernelIdeal.Frame
import proofs.«111167_j33036888441456_2_alg».proof.Proof.LibPlainProduct
import proofs.«111167_j33036888441456_2_alg».proof.Proof.LibRowsProduct
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## The body's stored value at an index -/

/-- A [4000, 3] block times a [3, 256] matrix into the zero accumulator, at (p, k). -/
theorem narrow_product_apply (a : FVec Ideal S4000x3 .bf16) (b : FVec Ideal S3x256 .bf16) (p : Fin 4000) (k : Fin 256) :
    matmul dot_S4000x3_S3x256_S4000x256_1_0_0_1_n_n none a b (constant (F := Ideal) S4000x256 .f32 0x00000000#32) (ix2 p k)
      = ∑ i : Fin 3, a (ix2 p i) * b (ix2 i k) :=
  Cert.PlainProduct.matmul_nn_apply dot_S4000x3_S3x256_S4000x256_1_0_0_1_n_n_wf none a b p k

/-- A [4000, 256] block times the [256, 512] matrix into the zero accumulator, at (p, j). -/
theorem wide_product_apply (a : FVec Ideal S4000x256 .bf16) (b : FVec Ideal S256x512 .bf16) (p : Fin 4000) (j : Fin 512) :
    matmul dot_S4000x256_S256x512_S4000x512_1_0_0_1_n_n none a b (constant (F := Ideal) S4000x512 .f32 0x00000000#32) (ix2 p j)
      = ∑ k : Fin 256, a (ix2 p k) * b (ix2 k j) :=
  Cert.PlainProduct.matmul_nn_apply dot_S4000x256_S256x512_S4000x512_1_0_0_1_n_n_wf none a b p j

/-- The value the body stores, at (p, j): the hidden row max(h·w0 + t·w1 + b2, 0) against column j of wl, plus bl's
    entry j. -/
theorem stored_value_apply (v0 v2 : Vec Ideal S4000x3 .bf16) (v4 v6 : Vec Ideal S3x256 .bf16) (v11 : Vec Ideal S1x256 .f32)
    (v18 : Vec Ideal S256x512 .bf16) (v21 : Vec Ideal S1x512 .f32) (p : Fin 4000) (j : Fin 512) :
    k1_pay1 v0 v2 v4 v6 v11 v18 v21 (ix2 p j)
      = (∑ k : Fin 256,
          max (((∑ i : Fin 3, v0 (ix2 p i) * v4 (ix2 i k)) + (∑ i : Fin 3, v2 (ix2 p i) * v6 (ix2 i k)))
               + v11 (ix2 (0 : Fin 1) k)) (Ideal.ofBits .f32 0x00000000#32)
            * v18 (ix2 k j))
        + v21 (ix2 (0 : Fin 1) j) := by
  unfold k1_pay1
  simp only [shapeCast_self]
  rw [addf_apply, wide_product_apply, Cert.RowsProduct.broadcastTo_1n_an_apply]
  refine congrArg (· + v21 (ix2 (0 : Fin 1) j)) (Finset.sum_congr rfl fun k _ => ?_)
  rw [truncf_apply, maximumf_apply, addf_apply, addf_apply, narrow_product_apply, narrow_product_apply,
    Cert.RowsProduct.broadcastTo_1n_an_apply, broadcast_apply]
  rfl

variable (V : (c : Dev nD) → (b : Ref sig .tc) → Buf (Elt Ideal) ((c : Thread nD τ).loc b))

/-! ## The whole-array expression, and each point's block of it -/

/-- The body loads and stores whole staging buffers: through the rectangle at offsets zero. -/
theorem offsets_zero : (![0, 0] : Fin 2 → Nat) = fun _ => 0 := funext fun a => by fin_cases a <;> rfl

/-- max(H·W0 + T·W1 + B2, 0)·WL + BL over whole arrays: entry (n, j) is the sum over k of
    max((Σ_a H (n, a)·W0 (a, k) + Σ_a T (n, a)·W1 (a, k)) + B2 (0, k), 0) · WL (k, j), plus BL (0, j). -/
def hiddenLinear (H T : S100000x3.Idx → EReal) (W0 W1 : S3x256.Idx → EReal) (B2 : S1x256.Idx → EReal)
    (WL : S256x512.Idx → EReal) (BL : S1x512.Idx → EReal) : S100000x512.Idx → EReal :=
  fun i => (∑ k : Fin 256,
      max (((∑ a : Fin 3, H (ix2 (⟨(i 0).val, idx2_lt0 i⟩ : Fin 100000) a) * W0 (ix2 a k))
            + (∑ a : Fin 3, T (ix2 (⟨(i 0).val, idx2_lt0 i⟩ : Fin 100000) a) * W1 (ix2 a k)))
           + B2 (ix2 (0 : Fin 1) k)) (Ideal.ofBits .f32 0x00000000#32)
        * WL (ix2 k (⟨(i 1).val, idx2_lt1 i⟩ : Fin 512)))
    + BL (ix2 (0 : Fin 1) (⟨(i 1).val, idx2_lt1 i⟩ : Fin 512))

/-- The whole-array expression at (n, j). -/
theorem hiddenLinear_apply (H T : S100000x3.Idx → EReal) (W0 W1 : S3x256.Idx → EReal) (B2 : S1x256.Idx → EReal)
    (WL : S256x512.Idx → EReal) (BL : S1x512.Idx → EReal) (n : Fin 100000) (j : Fin 512) :
    hiddenLinear H T W0 W1 B2 WL BL (ix2 n j)
      = (∑ k : Fin 256,
          max (((∑ a : Fin 3, H (ix2 n a) * W0 (ix2 a k)) + (∑ a : Fin 3, T (ix2 n a) * W1 (ix2 a k)))
               + B2 (ix2 (0 : Fin 1) k)) (Ideal.ofBits .f32 0x00000000#32)
            * WL (ix2 k j))
        + BL (ix2 (0 : Fin 1) j) := rfl

/-- The index maps over the 25 grid points: the two row operands' and the output's block index is (t, 0), every other
    window's is (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The first row operand's block at point t is rows 4000·t … 4000·t + 3999 of the operand. -/
theorem first_rows_block_apply (c : Dev nD) (t : Fin cfg1.N) (x : S4000x3.Idx) (i : S100000x3.Idx)
    (h0 : (i 0).val = 4000 * t.val + (x 0).val) (h1 : (i 1).val = (x 1).val) :
    (iblk1 V c 0 t : Vec Ideal S4000x3 .bf16) x = (V c main_v82 : S100000x3.Idx → EReal) i := by
  obtain ⟨e0, e1, -⟩ := index_facts1 t
  unfold iblk1
  rw [View.read_apply]
  show V c main_v82 _ = V c main_v82 _
  refine congrArg (V c main_v82) ?_
  funext a; apply Fin.ext
  match a with
  | ⟨0, _⟩ => show win1_0.index t (0 : Fin 2) * 4000 + 1 * (x 0).val = (i 0).val; rw [e0, h0]; omega
  | ⟨1, _⟩ => show win1_0.index t (1 : Fin 2) * 3 + 1 * (x 1).val = (i 1).val; rw [e1, h1]; omega

/-- The second row operand's block at point t is rows 4000·t … 4000·t + 3999 of the operand. -/
theorem second_rows_block_apply (c : Dev nD) (t : Fin cfg1.N) (x : S4000x3.Idx) (i : S100000x3.Idx)
    (h0 : (i 0).val = 4000 * t.val + (x 0).val) (h1 : (i 1).val = (x 1).val) :
    (iblk1 V c 1 t : Vec Ideal S4000x3 .bf16) x = (V c main_v83 : S100000x3.Idx → EReal) i := by
  obtain ⟨-, -, e0, e1, -⟩ := index_facts1 t
  unfold iblk1
  rw [View.read_apply]
  show V c main_v83 _ = V c main_v83 _
  refine congrArg (V c main_v83) ?_
  funext a; apply Fin.ext
  match a with
  | ⟨0, _⟩ => show win1_1.index t (0 : Fin 2) * 4000 + 1 * (x 0).val = (i 0).val; rw [e0, h0]; omega
  | ⟨1, _⟩ => show win1_1.index t (1 : Fin 2) * 3 + 1 * (x 1).val = (i 1).val; rw [e1, h1]; omega

/-- The first [3, 256] weight matrix's block at every point is the whole matrix. -/
theorem first_narrow_weights_block (c : Dev nD) (t : Fin cfg1.N) :
    (iblk1 V c 2 t : Vec Ideal S3x256 .bf16) = (V c main_v84 : S3x256.Idx → EReal) := by
  obtain ⟨-, -, -, -, e0, e1, -⟩ := index_facts1 t
  funext x
  unfold iblk1
  rw [View.read_apply]
  show V c main_v84 _ = V c main_v84 x
  refine congrArg (V c main_v84) ?_
  funext a; apply Fin.ext
  match a with
  | ⟨0, _⟩ => show win1_2.index t (0 : Fin 2) * 3 + 1 * (x 0).val = (x 0).val; rw [e0]; omega
  | ⟨1, _⟩ => show win1_2.index t (1 : Fin 2) * 256 + 1 * (x 1).val = (x 1).val; rw [e1]; omega

/-- The second [3, 256] weight matrix's block at every point is the whole matrix. -/
theorem second_narrow_weights_block (c : Dev nD) (t : Fin cfg1.N) :
    (iblk1 V c 3 t : Vec Ideal S3x256 .bf16) = (V c main_v85 : S3x256.Idx → EReal) := by
  obtain ⟨-, -, -, -, -, -, e0, e1, -⟩ := index_facts1 t
  funext x
  unfold iblk1
  rw [View.read_apply]
  show V c main_v85 _ = V c main_v85 x
  refine congrArg (V c main_v85) ?_
  funext a; apply Fin.ext
  match a with
  | ⟨0, _⟩ => show win1_3.index t (0 : Fin 2) * 3 + 1 * (x 0).val = (x 0).val; rw [e0]; omega
  | ⟨1, _⟩ => show win1_3.index t (1 : Fin 2) * 256 + 1 * (x 1).val = (x 1).val; rw [e1]; omega

/-- The [1, 256] bias row's block at every point is the whole row. -/
theorem hidden_bias_block (c : Dev nD) (t : Fin cfg1.N) :
    (iblk1 V c 4 t : Vec Ideal S1x256 .f32) = (V c main_v87 : S1x256.Idx → EReal) := by
  obtain ⟨-, -, -, -, -, -, -, -, e0, e1, -⟩ := index_facts1 t
  funext x
  unfold iblk1
  rw [View.read_apply]
  show V c main_v87 _ = V c main_v87 x
  refine congrArg (V c main_v87) ?_
  funext a; apply Fin.ext
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The [256, 512] weight matrix's block at every point is the whole matrix. -/
theorem wide_weights_block (c : Dev nD) (t : Fin cfg1.N) :
    (iblk1 V c 5 t : Vec Ideal S256x512 .bf16) = (V c main_v86 : S256x512.Idx → EReal) := by
  obtain ⟨-, -, -, -, -, -, -, -, -, -, e0, e1, -⟩ := index_facts1 t
  funext x
  unfold iblk1
  rw [View.read_apply]
  show V c main_v86 _ = V c main_v86 x
  refine congrArg (V c main_v86) ?_
  funext a; apply Fin.ext
  match a with
  | ⟨0, _⟩ => show win1_5.index t (0 : Fin 2) * 256 + 1 * (x 0).val = (x 0).val; rw [e0]; omega
  | ⟨1, _⟩ => show win1_5.index t (1 : Fin 2) * 512 + 1 * (x 1).val = (x 1).val; rw [e1]; omega

/-- The [1, 512] bias row's block at every point is the whole row. -/
theorem out_bias_block (c : Dev nD) (t : Fin cfg1.N) :
    (iblk1 V c 6 t : Vec Ideal S1x512 .f32) = (V c main_v88 : S1x512.Idx → EReal) := by
  obtain ⟨-, -, -, -, -, -, -, -, -, -, -, -, e0, e1, -⟩ := index_facts1 t
  funext x
  unfold iblk1
  rw [View.read_apply]
  show V c main_v88 _ = V c main_v88 x
  refine congrArg (V c main_v88) ?_
  funext a; apply Fin.ext
  match a with
  | ⟨0, _⟩ => show win1_6.index t (0 : Fin 2) * 1 + 1 * (x 0).val = (x 0).val; rw [e0]; omega
  | ⟨1, _⟩ => show win1_6.index t (1 : Fin 2) * 512 + 1 * (x 1).val = (x 1).val; rw [e1]; omega

/-- The stored value of staged blocks is the same rows of the whole-array expression: when the two staged row blocks
    are rows 4000·b … of H and T and the other staged blocks are the whole arrays, the stored value at block index y is
    the whole-array expression at the array index i that y names in block b. -/
theorem block_of_hiddenLinear
    (x0 x1 : Vec Ideal S4000x3 .bf16) (x2 x3 : Vec Ideal S3x256 .bf16) (x4 : Vec Ideal S1x256 .f32)
    (x5 : Vec Ideal S256x512 .bf16) (x6 : Vec Ideal S1x512 .f32)
    (H T : S100000x3.Idx → EReal) (W0 W1 : S3x256.Idx → EReal) (B2 : S1x256.Idx → EReal)
    (WL : S256x512.Idx → EReal) (BL : S1x512.Idx → EReal) (b : ℕ)
    (hx0 : ∀ (x : S4000x3.Idx) (i : S100000x3.Idx), (i 0).val = 4000 * b + (x 0).val → (i 1).val = (x 1).val → x0 x = H i)
    (hx1 : ∀ (x : S4000x3.Idx) (i : S100000x3.Idx), (i 0).val = 4000 * b + (x 0).val → (i 1).val = (x 1).val → x1 x = T i)
    (hx2 : x2 = W0) (hx3 : x3 = W1) (hx4 : x4 = B2) (hx5 : x5 = WL) (hx6 : x6 = BL)
    (y : S4000x512.Idx) (i : S100000x512.Idx) (hi0 : (i 0).val = 4000 * b + (y 0).val) (hi1 : (i 1).val = (y 1).val) :
    k1_pay1 x0 x1 x2 x3 x4 x5 x6 y = hiddenLinear H T W0 W1 B2 WL BL i := by
  obtain ⟨p, q, rfl⟩ : ∃ (p : Fin 4000) (q : Fin 512), y = ix2 p q := ⟨y 0, y 1, eq_ix2 y⟩
  obtain ⟨n, j, rfl⟩ : ∃ (n : Fin 100000) (j : Fin 512), i = ix2 n j := ⟨i 0, i 1, eq_ix2 i⟩
  subst hx2 hx3 hx4 hx5 hx6
  obtain rfl : j = q := Fin.ext hi1
  have e0 : ∀ a : Fin 3, x0 (ix2 p a) = H (ix2 n a) := fun a => hx0 (ix2 p a) (ix2 n a) hi0 rfl
  have e1 : ∀ a : Fin 3, x1 (ix2 p a) = T (ix2 n a) := fun a => hx1 (ix2 p a) (ix2 n a) hi0 rfl
  rw [stored_value_apply, hiddenLinear_apply]
  simp only [e0, e1]

/-! ## The output -/

/-- What point t writes back to the output is block t of the whole-array expression. -/
theorem flushed_out (c : Dev nD) (t : Fin cfg1.N) :
    (dat1 (F := Ideal) V c).flushed 7 t
      = ((cfg1.win 7).blk t).view.read (Elt Ideal)
          (hiddenLinear (V c main_v82) (V c main_v83) (V c main_v84) (V c main_v85) (V c main_v87) (V c main_v86) (V c main_v88)) := by
  show (cfg1.win 7).cut (grid1.coords t) ((dat1 V c).after 7 t) = _
  rw [after1_7]
  unfold out1_7
  rw [View.canon_unit_zero offsets_zero]
  simp only [View.ld_unit_zero (S := S4000x3) offsets_zero, View.ld_unit_zero (S := S3x256) offsets_zero,
    View.ld_unit_zero (S := S1x256) offsets_zero, View.ld_unit_zero (S := S256x512) offsets_zero,
    View.ld_unit_zero (S := S1x512) offsets_zero]
  obtain ⟨-, -, -, -, -, -, -, -, -, -, -, -, -, -, e0, e1⟩ := index_facts1 t
  funext j
  show k1_pay1 (iblk1 V c 0 t) (iblk1 V c 1 t) (iblk1 V c 2 t) (iblk1 V c 3 t) (iblk1 V c 4 t) (iblk1 V c 5 t) (iblk1 V c 6 t)
      ((cfg1.win 7).xinj (grid1.coords t) j)
    = hiddenLinear (V c main_v82) (V c main_v83) (V c main_v84) (V c main_v85) (V c main_v87) (V c main_v86) (V c main_v88)
        (((cfg1.win 7).blk t).view.emb j)
  refine block_of_hiddenLinear (iblk1 V c 0 t) (iblk1 V c 1 t) (iblk1 V c 2 t) (iblk1 V c 3 t) (iblk1 V c 4 t) (iblk1 V c 5 t)
    (iblk1 V c 6 t) (V c main_v82) (V c main_v83) (V c main_v84) (V c main_v85) (V c main_v87) (V c main_v86) (V c main_v88) t.val
    (fun x i h0 h1 => first_rows_block_apply V c t x i h0 h1) (fun x i h0 h1 => second_rows_block_apply V c t x i h0 h1)
    (first_narrow_weights_block V c t) (second_narrow_weights_block V c t) (hidden_bias_block V c t)
    (wide_weights_block V c t) (out_bias_block V c t) _ _ ?_ ?_
  · show win1_7.index t (0 : Fin 2) * 4000 + 1 * (j 0).val = 4000 * t.val + (j 0).val; rw [e0]; omega
  · show win1_7.index t (1 : Fin 2) * 512 + 1 * (j 1).val = (j 1).val; rw [e1]; omega

/-- An index of the output is in point t's block iff each coordinate is in the block's range on its axis. -/
theorem mem_block_out (t : Fin cfg1.N) (i : S100000x512.Idx) :
    i ∈ ((cfg1.win 7).blk t).view.set ↔ ∀ a : Fin 2, win1_7.index t a * S4000x512.size a ≤ (i a).val ∧ (i a).val < win1_7.index t a * S4000x512.size a + S4000x512.size a := by
  show i ∈ ((View.whole main_v89).slice (win1_7.rect t)).set ↔ _
  rw [View.set_slice_whole, Rect.mem_set_unit]
  exact Iff.rfl

/-- Row r of the output is in the block of point r / 4000: the 25 blocks of 4000 rows tile the array. -/
theorem covered_out (i : S100000x512.Idx) :
    ∃ t : Fin cfg1.N, (cfg1.win 7).flush t = true ∧ i ∈ ((cfg1.win 7).blk t).view.set := by
  have hi0 : (i 0).val < 100000 := idx2_lt0 i
  have hi1 : (i 1).val < 512 := idx2_lt1 i
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, -, e0, e1⟩ := index_facts1 t
  refine ⟨t, flush1_7 t, ?_⟩
  rw [mem_block_out]
  intro a
  match a with
  | ⟨0, _⟩ =>
    show win1_7.index t (0 : Fin 2) * 4000 ≤ (i 0).val ∧ (i 0).val < win1_7.index t (0 : Fin 2) * 4000 + 4000
    rw [e0, ht]; omega
  | ⟨1, _⟩ =>
    show win1_7.index t (1 : Fin 2) * 512 ≤ (i 1).val ∧ (i 1).val < win1_7.index t (1 : Fin 2) * 512 + 512
    rw [e1]; omega

/-- The output array after the region: the whole-array expression of the arrays on entry. -/
theorem out_array (c : Dev nD) :
    (dat1 (F := Ideal) V c).arrAt 7 cfg1.N
      = hiddenLinear (V c main_v82) (V c main_v83) (V c main_v84) (V c main_v85) (V c main_v87) (V c main_v86) (V c main_v88) :=
  (dat1 V c).arrAt_eq_of_cover 7
    (hiddenLinear (V c main_v82) (V c main_v83) (V c main_v84) (V c main_v85) (V c main_v87) (V c main_v86) (V c main_v88))
    (fun t _ => flushed_out V c t) covered_out

/-- The output at (n, j), the seven arrays named as arrays of extended reals. -/
theorem region1_out (c : Dev nD) (H T : S100000x3.Idx → EReal) (W0 W1 : S3x256.Idx → EReal) (B2 : S1x256.Idx → EReal)
    (WL : S256x512.Idx → EReal) (BL : S1x512.Idx → EReal)
    (hH : V c main_v82 = H) (hT : V c main_v83 = T) (hW0 : V c main_v84 = W0) (hW1 : V c main_v85 = W1)
    (hB2 : V c main_v87 = B2) (hWL : V c main_v86 = WL) (hBL : V c main_v88 = BL) (n : Fin 100000) (j : Fin 512) :
    (dat1 (F := Ideal) V c).arrAt 7 cfg1.N (ix2 n j)
      = ((∑ k : Fin 256,
          max (((∑ i : Fin 3, H (ix2 n i) * W0 (ix2 i k)) + (∑ i : Fin 3, T (ix2 n i) * W1 (ix2 i k)))
               + B2 (ix2 (0 : Fin 1) k)) (Ideal.ofBits .f32 0x00000000#32)
            * WL (ix2 k j))
        + BL (ix2 (0 : Fin 1) j) : EReal) := by
  subst hH hT hW0 hW1 hB2 hWL hBL
  exact congrFun (out_array V c) (ix2 n j)

end Cert.KernelIdeal.RegionValue

end
-- ==== Proof.Final.lean ====
/-
  The idealized kernel program and the idealized reference compute one function, element by element.

  Write `x` for the node features, `W0a, W1a, b1` for the first layer, `W0b, W1b, b2` for the second, `Wl, bl` for the
  last, `a e` for the edge weight, `s e` / `d e` for edge `e`'s source and destination row, `z` for the word of 0.0.

  The reference's first hidden table is
      h (n, ·) = max ((x (n,·)·W0a + (z + ∑_{e : d e = n} a e · x (s e, ·))·W1a) + b1, z);
  the kernel forms `u = x·W1a` on the device first and propagates that:
      h' (n, ·) = max ((x (n,·)·W0a + (z + ∑_{e : d e = n} a e · u (s e, ·))) + b1, z).
  These agree because the sum over edges commutes with the contraction against `W1a`: a law of the REALS, and every
  number in it is real — the features and `W1a` by the precondition (finite inputs), the edge weights always (they are
  built from counts of edges).  From there on the two programs apply the same operations to the same values: the second
  propagation of `h`, the second layer with its clamp, and the last layer — on the device in the kernel, on the host
  in the reference, a product being the same plain sum either way.
-/
import proofs.«111167_j33036888441456_2_alg».proof.Proof.KernelStages
import proofs.«111167_j33036888441456_2_alg».proof.Proof.Bridge
import proofs.«111167_j33036888441456_2_alg».proof.Proof.RefAtIndex
import proofs.«111167_j33036888441456_2_alg».proof.Proof.LinearLaw
import proofs.«111167_j33036888441456_2_alg».proof.Proof.NormReal
import proofs.«111167_j33036888441456_2_alg».proof.Proof.Region0Value
import proofs.«111167_j33036888441456_2_alg».proof.Proof.Region1Value
import Idealize.ShloMosaic.Lib.Pipeline.Value

set_option maxRecDepth 16384

noncomputable section

open scoped BigOperators

namespace Cert.Final

open Cert.KernelIdeal Cert.KernelIdeal.Gen Cert.KernelIdeal.HostValue Cert.KernelIdeal.StageValue Cert.KernelIdeal.RegionValue
open Cert.ReferenceIdeal.ReadP Cert.ReferenceIdeal.AtIndex Cert.Bridge Cert.RowGatherScatter Cert.RealEntries
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! The argument arrays and the first region's two results, as arrays of extended reals. -/
abbrev a0 : FVec Ideal S100000x64 .f32 := m ((c : Thread nD τ).loc main_arg0)
abbrev a1 : IVec S2x3200000 32 := m ((c : Thread nD τ).loc main_arg1)
abbrev a2 : FVec Ideal S64x3 .f32 := m ((c : Thread nD τ).loc main_arg2)
abbrev a3 : FVec Ideal S64x3 .f32 := m ((c : Thread nD τ).loc main_arg3)
abbrev a4 : FVec Ideal S3 .f32 := m ((c : Thread nD τ).loc main_arg4)
abbrev a5 : FVec Ideal S3x256 .f32 := m ((c : Thread nD τ).loc main_arg5)
abbrev a6 : FVec Ideal S3x256 .f32 := m ((c : Thread nD τ).loc main_arg6)
abbrev a7 : FVec Ideal S256 .f32 := m ((c : Thread nD τ).loc main_arg7)
abbrev a8 : FVec Ideal S256x512 .f32 := m ((c : Thread nD τ).loc main_arg8)
abbrev a9 : FVec Ideal S512 .f32 := m ((c : Thread nD τ).loc main_arg9)
abbrev prod0 : FVec Ideal S100000x3 .f32 := W4 m ρ c (Proc.devRef .tc main_v40_0)
abbrev prod1 : FVec Ideal S100000x3 .f32 := W4 m ρ c (Proc.devRef .tc main_v40_1)

/-- The first region's first result: the features times the first first-layer matrix. -/
theorem first0_apply (n : Fin 100000) (h : Fin 3) :
    prod0 m ρ c (ix2 n h) = ∑ k : Fin 64, a0 m c (ix2 n k) * a2 m c (ix2 k h) :=
  (congrFun (first_result0 m ρ c) (ix2 n h)).trans
    (region0_first (V3 m ρ) c _ _ (entry0_x m ρ c) (entry0_w0 m ρ c) n h)

/-- The first region's second result: the features times the second first-layer matrix. -/
theorem first1_apply (n : Fin 100000) (h : Fin 3) :
    prod1 m ρ c (ix2 n h) = ∑ k : Fin 64, a0 m c (ix2 n k) * a3 m c (ix2 k h) :=
  (congrFun (first_result1 m ρ c) (ix2 n h)).trans
    (region0_second (V3 m ρ) c _ _ (entry0_x m ρ c) (entry0_w1 m ρ c) n h)

/-- THE FIRST HIDDEN TABLE IS THE SAME: propagating `x·W1a` is contracting the propagated `x` with `W1a`, all numbers real. -/
theorem hidden_eq (hx0 : ∀ i, IsReal ((a0 m c) i)) (hx3 : ∀ i, IsReal ((a3 m c) i)) (n : Fin 100000) (h : Fin 3) :
    HostValue.hidden m ρ c (ix2 n h) = val_main_v66 (F := Ideal) (a0 m c) (a1 m c) (a2 m c) (a3 m c) (a4 m c) (ix2 n h) := by
  have key : (∑ k : Fin 64, val_main_v59 (F := Ideal) (a0 m c) (a1 m c) (ix2 n k) * (a3 m c) (ix2 k h))
      = Ideal.ofBits .f32 0x00000000#32
        + ∑ e ∈ hits (N := 100000) (colOf (dstOf (a1 m c))) n,
            normOf (F := Ideal) (a1 m c) (ix1 e)
              * prod1 m ρ c (ix2 (rowOf (N := 100000) (by decide) (colOf (srcOf (a1 m c))) e) h) := by
    rw [Finset.sum_congr rfl fun k _ => congrArg (· * (a3 m c) (ix2 k h)) (tx1_apply (a0 m c) (a1 m c) n k)]
    rw [← col_dst_first, ← col_src_first, ← norm_eq]
    rw [Cert.Cheb.contract_scatter (hits (N := 100000) (colOf (dstOf (a1 m c))) n) (fun e => normOf (F := Ideal) (a1 m c) (ix1 e))
      (fun e k => (a0 m c) (ix2 (rowOf (N := 100000) (by decide) (colOf (srcOf (a1 m c))) e) k)) (fun k => (a3 m c) (ix2 k h))
      (Ideal.ofBits .f32 0x00000000#32) Ideal.ofBits_zero_f32
      (fun e _ => by rw [norm_eq]; exact Cert.ReferenceIdeal.NormReal.norm_real (a1 m c) e) (fun e _ k => hx0 _) (fun k => hx3 _)]
    refine congrArg (Ideal.ofBits .f32 0x00000000#32 + ·) (Finset.sum_congr rfl fun e _ => ?_)
    rw [first1_apply]
  rw [h1_apply, key]
  unfold HostValue.hidden
  rw [reluOf_apply, preOf_apply, propOf_apply]
  rw [show (W4 m ρ c (Proc.devRef .tc main_v40_0) : FVec Ideal S100000x3 .f32) (ix2 n h)
      = ∑ k : Fin 64, a0 m c (ix2 n k) * a2 m c (ix2 k h) from first0_apply m ρ c n h]

/-- The second propagation is then the same, edge by edge. -/
theorem second_prop_eq (hx0 : ∀ i, IsReal ((a0 m c) i)) (hx3 : ∀ i, IsReal ((a3 m c) i)) (n : Fin 100000) (i : Fin 3) :
    propOf (normOf (F := Ideal) (a1 m c)) (srcOf (a1 m c)) (dstOf (a1 m c)) (HostValue.hidden m ρ c) (ix2 n i)
      = val_main_v88 (F := Ideal) (a0 m c) (a1 m c) (a2 m c) (a3 m c) (a4 m c) (ix2 n i) := by
  rw [propOf_apply, tx2_apply, ← col_dst_second, ← col_src_second, ← norm_eq]
  refine congrArg (Ideal.ofBits .f32 0x00000000#32 + ·) (Finset.sum_congr rfl fun e _ => ?_)
  rw [hidden_eq m ρ c hx0 hx3]

/-- A vector laid as one row, read in that row. -/
theorem row256 (v : FVec Ideal S256 .f32) (k : Fin 256) : shapeCast S1x256 v shapeCasts_S256_S1x256 (ix2 (0 : Fin 1) k) = v (ix1 k) := by
  rw [shapeCast_addUnit_apply]
  exact congrArg v (funext fun a => by match a with | ⟨0, _⟩ => rfl)
theorem row512 (v : FVec Ideal S512 .f32) (k : Fin 512) : shapeCast S1x512 v shapeCasts_S512_S1x512 (ix2 (0 : Fin 1) k) = v (ix1 k) := by
  rw [shapeCast_addUnit_apply]
  exact congrArg v (funext fun a => by match a with | ⟨0, _⟩ => rfl)

/-- THE RESULT: what the second region leaves in the result buffer is the reference's result term. -/
theorem result_eq (hx0 : ∀ i, IsReal ((a0 m c) i)) (hx3 : ∀ i, IsReal ((a3 m c) i)) :
    W8 m ρ c (Proc.devRef .tc main_v89) = val_main_v99 (F := Ideal) (a0 m c) (a1 m c) (a2 m c) (a3 m c) (a4 m c) (a5 m c) (a6 m c) (a7 m c) (a8 m c) (a9 m c) := by
  funext (j : S100000x512.Idx)
  obtain ⟨n, q, rfl⟩ : ∃ (n : Fin 100000) (q : Fin 512), j = ix2 n q := ⟨j 0, j 1, eq_ix2 j⟩
  refine (congrFun (result_is_region1 m ρ c) (ix2 n q)).trans ?_
  refine (region1_out (V7 m ρ) c _ _ _ _ _ _ _ (entry1_h m ρ c) (entry1_t m ρ c) (entry1_w0 m ρ c) (entry1_w1 m ρ c)
    (entry1_b2 m ρ c) (entry1_wl m ρ c) (entry1_bl m ρ c) n q).trans ?_
  rw [out_apply]
  simp only [truncf_apply, hidden_eq m ρ c hx0 hx3, second_prop_eq m ρ c hx0 hx3]
  refine congrArg₂ (· + ·) (Finset.sum_congr rfl fun k _ => ?_) (row512 (a9 m c) q)
  rw [row256 (a7 m c) k]

end Cert.Final

end
-- ==== Proof.lean ====
/-
  A graph network of two Chebyshev convolutions (order 2) and a linear layer, as a kernel program and as its reference.

  With `L = -D^{-1/2} A D^{-1/2}` the scaled Laplacian of the edge list (self loops dropped, `D` the source degrees),
  the reference computes
      h1 = relu (x·W0a + (L x)·W1a + b1),   h2 = relu (h1·W0b + (L h1)·W1b + b2),   out = h2·Wl + bl,
  `L v` being "gather the rows of v by source, weight each by its edge's number, add them up by destination".  The
  kernel program computes `x·W0a` and `x·W1a` in one device region, propagates the narrow `x·W1a` instead of `x`
  (that is `L (x·W1a)` in place of `(L x)·W1a`), and fuses the second convolution with the linear layer in a second
  device region.  Over the extended reals the two agree whenever the float inputs are finite: `L (x·W1a) = (L x)·W1a`
  is linearity of a finite sum of real numbers, and everything else is the same operation on the same values.

  The three frames: the word-level and the idealized kernel program by their generated frame certificates, the
  reference by its run.  The idealization rewrote nothing, so it preserves the program trivially.  The value claim: the
  kernel program's run ends with its result buffer at the fold of its segments, which `Final.result_eq` identifies with
  the reference's result term.
-/
import proofs.«111167_j33036888441456_2_alg».proof.Defs
import proofs.«111167_j33036888441456_2_alg».proof.Proof.Gen.Kernel
import proofs.«111167_j33036888441456_2_alg».proof.Proof.Gen.Kernel.Skeleton
import proofs.«111167_j33036888441456_2_alg».proof.Proof.Gen.Kernel.Launch
import proofs.«111167_j33036888441456_2_alg».proof.Proof.Gen.Kernel.Points
import proofs.«111167_j33036888441456_2_alg».proof.Proof.Gen.Kernel.Frame
import proofs.«111167_j33036888441456_2_alg».proof.Proof.Gen.KernelIdeal
import proofs.«111167_j33036888441456_2_alg».proof.Proof.Gen.KernelIdeal.Skeleton
import proofs.«111167_j33036888441456_2_alg».proof.Proof.Gen.KernelIdeal.Launch
import proofs.«111167_j33036888441456_2_alg».proof.Proof.Gen.KernelIdeal.Points
import proofs.«111167_j33036888441456_2_alg».proof.Proof.Gen.KernelIdeal.Frame
import proofs.«111167_j33036888441456_2_alg».proof.Proof.Gen.ReferenceIdeal
import proofs.«111167_j33036888441456_2_alg».proof.Proof.Gen.Pre_finite_inputs
import proofs.«111167_j33036888441456_2_alg».proof.Proof.RefRun
import proofs.«111167_j33036888441456_2_alg».proof.Proof.RefRead
import proofs.«111167_j33036888441456_2_alg».proof.Proof.KernelRun
import proofs.«111167_j33036888441456_2_alg».proof.Proof.RealInputs
import proofs.«111167_j33036888441456_2_alg».proof.Proof.Final
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, finite on every float input, both programs end with the same result:
    the kernel program's result buffer holds the reference's result term of the arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v89),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v99_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  obtain ⟨hx0, hx3⟩ := Cert.Cheb.inputs_real _ _ _ _ _ _ _ _ _ _ (hpre c)
  exact (Cert.Final.result_eq m ρ c hx0 hx3).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
